-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S3x512x32 : Shape := ⟨3, ![3, 512, 32]⟩
abbrev S3x1x32 : Shape := ⟨3, ![3, 1, 32]⟩
abbrev S3x32x16 : Shape := ⟨3, ![3, 32, 16]⟩
abbrev S3x1x16 : Shape := ⟨3, ![3, 1, 16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S3x512x32 : S_.BroadcastsInDim S3x512x32 (![] : Fin 0 → Fin S3x512x32.rank)
  reducesTo_S3x512x32_S_d0_1_2 : S3x512x32.ReducesTo [0, 1, 2] S_
  bcast_S_S3x1x32 : S_.BroadcastsInDim S3x1x32 (![] : Fin 0 → Fin S3x1x32.rank)
  reducesTo_S3x1x32_S_d0_1_2 : S3x1x32.ReducesTo [0, 1, 2] S_
  bcast_S_S3x32x16 : S_.BroadcastsInDim S3x32x16 (![] : Fin 0 → Fin S3x32x16.rank)
  reducesTo_S3x32x16_S_d0_1_2 : S3x32x16.ReducesTo [0, 1, 2] S_
  bcast_S_S3x1x16 : S_.BroadcastsInDim S3x1x16 (![] : Fin 0 → Fin S3x1x16.rank)
  reducesTo_S3x1x16_S_d0_1_2 : S3x1x16.ReducesTo [0, 1, 2] S_

variable [Facts]

def fn_part1 {F : FTy → Type} [FloatOps F] (main_arg4 : FVec F S3x1x16 .f32) (main_v13 : IVec S_ 1) (main_v16 : IVec S3x32x16 1) : IVec S_ 1 :=
  let main_c_5 : IVec S_ 1 := constantI S_ 1 1#1
  let main_v17 : IVec S_ 1 := (fun x v => Host.reduce IntOp.andi x v reducesTo_S3x32x16_S_d0_1_2 h_S_) main_v16 main_c_5
  let main_v18 : IVec S_ 1 := andi main_v13 main_v17
  let main_v19 : FVec F S3x1x16 .f32 := Host.absf main_arg4
  let main_cst_6 : FVec F S_ .f32 := constant S_ .f32 0x7F800000#32
  let main_v20 : FVec F S3x1x16 .f32 := broadcastInDim S3x1x16 ![] bcast_S_S3x1x16 main_cst_6
  let main_v21 : IVec S3x1x16 1 := cmpf .olt main_v19 main_v20
  let main_c_7 : IVec S_ 1 := constantI S_ 1 1#1
  let main_v22 : IVec S_ 1 := (fun x v => Host.reduce IntOp.andi x v reducesTo_S3x1x16_S_d0_1_2 h_S_) main_v21 main_c_7
  let main_v23 : IVec S_ 1 := andi main_v18 main_v22
  main_v23

def fn {F : FTy → Type} [FloatOps F] (main_arg0 : FVec F S8192x512 .f32) (main_arg1 : FVec F S3x512x32 .f32) (main_arg2 : FVec F S3x1x32 .f32) (main_arg3 : FVec F S3x32x16 .f32) (main_arg4 : FVec F S3x1x16 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S3x512x32 .f32 := Host.absf main_arg1
  let main_cst_0 : FVec F S_ .f32 := constant S_ .f32 0x7F800000#32
  let main_v5 : FVec F S3x512x32 .f32 := broadcastInDim S3x512x32 ![] bcast_S_S3x512x32 main_cst_0
  let main_v6 : IVec S3x512x32 1 := cmpf .olt main_v4 main_v5
  let main_c_1 : IVec S_ 1 := constantI S_ 1 1#1
  let main_v7 : IVec S_ 1 := (fun x v => Host.reduce IntOp.andi x v reducesTo_S3x512x32_S_d0_1_2 h_S_) main_v6 main_c_1
  let main_v8 : IVec S_ 1 := andi main_v3 main_v7
  let main_v9 : FVec F S3x1x32 .f32 := Host.absf main_arg2
  let main_cst_2 : FVec F S_ .f32 := constant S_ .f32 0x7F800000#32
  let main_v10 : FVec F S3x1x32 .f32 := broadcastInDim S3x1x32 ![] bcast_S_S3x1x32 main_cst_2
  let main_v11 : IVec S3x1x32 1 := cmpf .olt main_v9 main_v10
  let main_c_3 : IVec S_ 1 := constantI S_ 1 1#1
  let main_v12 : IVec S_ 1 := (fun x v => Host.reduce IntOp.andi x v reducesTo_S3x1x32_S_d0_1_2 h_S_) main_v11 main_c_3
  let main_v13 : IVec S_ 1 := andi main_v8 main_v12
  let main_v14 : FVec F S3x32x16 .f32 := Host.absf main_arg3
  let main_cst_4 : FVec F S_ .f32 := constant S_ .f32 0x7F800000#32
  let main_v15 : FVec F S3x32x16 .f32 := broadcastInDim S3x32x16 ![] bcast_S_S3x32x16 main_cst_4
  let main_v16 : IVec S3x32x16 1 := cmpf .olt main_v14 main_v15
  fn_part1 (F := F) main_arg4 main_v13 main_v16
-- ==== Kernel.lean ====
abbrev S8192x512 : Shape := ⟨2, ![8192, 512]⟩
abbrev S3x512x32 : Shape := ⟨3, ![3, 512, 32]⟩
abbrev S3x1x32 : Shape := ⟨3, ![3, 1, 32]⟩
abbrev S3x32x16 : Shape := ⟨3, ![3, 32, 16]⟩
abbrev S3x1x16 : Shape := ⟨3, ![3, 1, 16]⟩
abbrev S8192x128 : Shape := ⟨2, ![8192, 128]⟩
abbrev S2048x512 : Shape := ⟨2, ![2048, 512]⟩
abbrev S2048x128 : Shape := ⟨2, ![2048, 128]⟩
abbrev S512x32 : Shape := ⟨2, ![512, 32]⟩
abbrev S1x512x32 : Shape := ⟨3, ![1, 512, 32]⟩
abbrev S512x128 : Shape := ⟨2, ![512, 128]⟩
abbrev S1x1x32 : Shape := ⟨3, ![1, 1, 32]⟩
abbrev S1x32 : Shape := ⟨2, ![1, 32]⟩
abbrev S1x128 : Shape := ⟨2, ![1, 128]⟩
abbrev S1x32x16 : Shape := ⟨3, ![1, 32, 16]⟩
abbrev S32x16 : Shape := ⟨2, ![32, 16]⟩
abbrev S32x112 : Shape := ⟨2, ![32, 112]⟩
abbrev S32x128 : Shape := ⟨2, ![32, 128]⟩
abbrev S32x96 : Shape := ⟨2, ![32, 96]⟩
abbrev S32x32 : Shape := ⟨2, ![32, 32]⟩
abbrev S32x80 : Shape := ⟨2, ![32, 80]⟩
abbrev S128x128 : Shape := ⟨2, ![128, 128]⟩
abbrev S1x1x16 : Shape := ⟨3, ![1, 1, 16]⟩
abbrev S1x16 : Shape := ⟨2, ![1, 16]⟩
abbrev S1x80 : Shape := ⟨2, ![1, 80]⟩
abbrev S8192x8192 : Shape := ⟨2, ![8192, 8192]⟩
abbrev S256x8192 : Shape := ⟨2, ![256, 8192]⟩
abbrev S256x128 : Shape := ⟨2, ![256, 128]⟩

abbrev nBuf : Space → Nat
  | .hbm => 7
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S3x512x32, .f32⟩
  | .hbm, ⟨2, _⟩ => ⟨S3x1x32, .f32⟩
  | .hbm, ⟨3, _⟩ => ⟨S3x32x16, .f32⟩
  | .hbm, ⟨4, _⟩ => ⟨S3x1x16, .f32⟩
  | .hbm, ⟨5, _⟩ => ⟨S8192x128, .bf16⟩
  | .hbm, ⟨6, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S3x512x32, .f32⟩
  | .local _ .vmem, ⟨3, _⟩ => ⟨S3x1x32, .f32⟩
  | .local _ .vmem, ⟨4, _⟩ => ⟨S3x32x16, .f32⟩
  | .local _ .vmem, ⟨5, _⟩ => ⟨S3x1x16, .f32⟩
  | .local _ .vmem, ⟨6, _⟩ => ⟨S2048x128, .bf16⟩
  | .local _ .vmem, ⟨7, _⟩ => ⟨S2048x128, .bf16⟩
  | .local _ .vmem, ⟨8, _⟩ => ⟨S8192x128, .bf16⟩
  | .local _ .vmem, ⟨9, _⟩ => ⟨S256x8192, .f32⟩
  | .local _ .vmem, ⟨10, _⟩ => ⟨S256x8192, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def k1_off1 (i : grid1.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8192x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S3x512x32_S1x512x32_0_0_0 : ∀ a, (![0, 0, 0] : Fin 3 → Nat) a + S1x512x32.size a ≤ S3x512x32.size a
  h_S1x512x32 : 0 < S1x512x32.numel
  shapeCasts_S1x512x32_S512x32 : S1x512x32.ShapeCasts S512x32
  inb_S3x512x32_S1x512x32_1_0_0 : ∀ a, (![1, 0, 0] : Fin 3 → Nat) a + S1x512x32.size a ≤ S3x512x32.size a
  inb_S3x512x32_S1x512x32_2_0_0 : ∀ a, (![2, 0, 0] : Fin 3 → Nat) a + S1x512x32.size a ≤ S3x512x32.size a
  concatenates_S512x32_S512x32_S512x32_S512x32_S512x128_d1 : Shape.Concatenates [S512x32, S512x32, S512x32, S512x32] S512x128 1
  inb_S3x1x32_S1x1x32_0_0_0 : ∀ a, (![0, 0, 0] : Fin 3 → Nat) a + S1x1x32.size a ≤ S3x1x32.size a
  h_S1x1x32 : 0 < S1x1x32.numel
  shapeCasts_S1x1x32_S1x32 : S1x1x32.ShapeCasts S1x32
  inb_S3x1x32_S1x1x32_1_0_0 : ∀ a, (![1, 0, 0] : Fin 3 → Nat) a + S1x1x32.size a ≤ S3x1x32.size a
  inb_S3x1x32_S1x1x32_2_0_0 : ∀ a, (![2, 0, 0] : Fin 3 → Nat) a + S1x1x32.size a ≤ S3x1x32.size a
  concatenates_S1x32_S1x32_S1x32_S1x32_S1x128_d1 : Shape.Concatenates [S1x32, S1x32, S1x32, S1x32] S1x128 1
  inb_S3x32x16_S1x32x16_0_0_0 : ∀ a, (![0, 0, 0] : Fin 3 → Nat) a + S1x32x16.size a ≤ S3x32x16.size a
  h_S1x32x16 : 0 < S1x32x16.numel
  shapeCasts_S1x32x16_S32x16 : S1x32x16.ShapeCasts S32x16
  concatenates_S32x16_S32x112_S32x128_d1 : Shape.Concatenates [S32x16, S32x112] S32x128 1
  inb_S3x32x16_S1x32x16_1_0_0 : ∀ a, (![1, 0, 0] : Fin 3 → Nat) a + S1x32x16.size a ≤ S3x32x16.size a
  concatenates_S32x16_S32x16_S32x96_S32x128_d1 : Shape.Concatenates [S32x16, S32x16, S32x96] S32x128 1
  inb_S3x32x16_S1x32x16_2_0_0 : ∀ a, (![2, 0, 0] : Fin 3 → Nat) a + S1x32x16.size a ≤ S3x32x16.size a
  concatenates_S32x32_S32x16_S32x80_S32x128_d1 : Shape.Concatenates [S32x32, S32x16, S32x80] S32x128 1
  concatenates_S32x128_S32x128_S32x128_S32x128_S128x128_d0 : Shape.Concatenates [S32x128, S32x128, S32x128, S32x128] S128x128 0
  inb_S3x1x16_S1x1x16_0_0_0 : ∀ a, (![0, 0, 0] : Fin 3 → Nat) a + S1x1x16.size a ≤ S3x1x16.size a
  h_S1x1x16 : 0 < S1x1x16.numel
  shapeCasts_S1x1x16_S1x16 : S1x1x16.ShapeCasts S1x16
  inb_S3x1x16_S1x1x16_1_0_0 : ∀ a, (![1, 0, 0] : Fin 3 → Nat) a + S1x1x16.size a ≤ S3x1x16.size a
  inb_S3x1x16_S1x1x16_2_0_0 : ∀ a, (![2, 0, 0] : Fin 3 → Nat) a + S1x1x16.size a ≤ S3x1x16.size a
  concatenates_S1x16_S1x16_S1x16_S1x80_S1x128_d1 : Shape.Concatenates [S1x16, S1x16, S1x16, S1x80] S1x128 1
  inb_S2048x512_S2048x512_0_0 : ∀ a, (![0, 0] : Fin 2 → Nat) a + S2048x512.size a ≤ S2048x512.size a
  h_S2048x512 : 0 < S2048x512.numel
  broadcasts_S1x128_S2048x128 : S1x128.Broadcasts S2048x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x8192_S256x8192_0_0 : ∀ a, (![0, 0] : Fin 2 → Nat) a + S256x8192.size a ≤ S256x8192.size a
  h_S256x8192 : 0 < S256x8192.numel
  dot_S2048x512_S512x128_S2048x128_1_0_0_1_n_n_wf : DotDims.WF S2048x512 S512x128 S2048x128 [1] [0] [0] [1] [] []
  dot_S2048x128_S128x128_S2048x128_1_0_0_1_n_n_wf : DotDims.WF S2048x128 S128x128 S2048x128 [1] [0] [0] [1] [] []
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x512x32.size a ≤ S3x512x32.size a
  hwx0_1 : ∀ i : grid0.Coords, EltTy.bits .f32 = 32 ∨ (Rect.block (s := S3x512x32) S3x512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1x32.size a ≤ S3x1x32.size a
  hwx0_2 : ∀ i : grid0.Coords, EltTy.bits .f32 = 32 ∨ (Rect.block (s := S3x1x32) S3x1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32x16.size a ≤ S3x32x16.size a
  hwx0_3 : ∀ i : grid0.Coords, EltTy.bits .f32 = 32 ∨ (Rect.block (s := S3x32x16) S3x32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1x16.size a ≤ S3x1x16.size a
  hwx0_4 : ∀ i : grid0.Coords, EltTy.bits .f32 = 32 ∨ (Rect.block (s := S3x1x16) S3x1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S8192x128.size a
  hwx0_5 : ∀ i : grid0.Coords, EltTy.bits .bf16 = 32 ∨ (Rect.block (s := S8192x128) S2048x128.size (cc0_transform_5 i) (hinb0_5 i)).WholeWords (EltTy.packing .bf16)
  hrank1 : 0 < grid1.rank
  k1_off1_inb : ∀ i : grid1.Coords, ∀ a, (k1_off1 i) a + S256x128.size a ≤ S8192x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S8192x128.size a
  hwx1_0 : ∀ i : grid1.Coords, EltTy.bits .bf16 = 32 ∨ (Rect.block (s := S8192x128) S8192x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S8192x8192.size a
  hwx1_1 : ∀ i : grid1.Coords, EltTy.bits .f32 = 32 ∨ (Rect.block (s := S8192x8192) S256x8192.size (cc1_transform_1 i) (hinb1_1 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S8192x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x8192.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8192x512 : Shape := ⟨2, ![8192, 512]⟩
abbrev S3x512x32 : Shape := ⟨3, ![3, 512, 32]⟩
abbrev S3x1x32 : Shape := ⟨3, ![3, 1, 32]⟩
abbrev S3x32x16 : Shape := ⟨3, ![3, 32, 16]⟩
abbrev S3x1x16 : Shape := ⟨3, ![3, 1, 16]⟩
abbrev S_ : Shape := ⟨0, ![]⟩
abbrev S512x128 : Shape := ⟨2, ![512, 128]⟩
abbrev S1x128 : Shape := ⟨2, ![1, 128]⟩
abbrev S128x128 : Shape := ⟨2, ![128, 128]⟩
abbrev S1x512x32 : Shape := ⟨3, ![1, 512, 32]⟩
abbrev S512x32 : Shape := ⟨2, ![512, 32]⟩
abbrev S1 : Shape := ⟨1, ![1]⟩
abbrev S1x1x32 : Shape := ⟨3, ![1, 1, 32]⟩
abbrev S1x32 : Shape := ⟨2, ![1, 32]⟩
abbrev S1x32x16 : Shape := ⟨3, ![1, 32, 16]⟩
abbrev S32x16 : Shape := ⟨2, ![32, 16]⟩
abbrev S2 : Shape := ⟨1, ![2]⟩
abbrev S1x1x16 : Shape := ⟨3, ![1, 1, 16]⟩
abbrev S1x16 : Shape := ⟨2, ![1, 16]⟩
abbrev S8192x128 : Shape := ⟨2, ![8192, 128]⟩
abbrev S512x512 : Shape := ⟨2, ![512, 512]⟩
abbrev S8192x8192 : Shape := ⟨2, ![8192, 8192]⟩

abbrev nBuf : Space → Nat
  | .hbm => 84
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S3x512x32, .f32⟩
  | .hbm, ⟨2, _⟩ => ⟨S3x1x32, .f32⟩
  | .hbm, ⟨3, _⟩ => ⟨S3x32x16, .f32⟩
  | .hbm, ⟨4, _⟩ => ⟨S3x1x16, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S1x128, .f32⟩
  | .hbm, ⟨9, _⟩ => ⟨S_, .f32⟩
  | .hbm, ⟨10, _⟩ => ⟨S128x128, .f32⟩
  | .hbm, ⟨11, _⟩ => ⟨S_, .f32⟩
  | .hbm, ⟨12, _⟩ => ⟨S1x128, .f32⟩
  | .hbm, ⟨13, _⟩ => ⟨S1x512x32, .f32⟩
  | .hbm, ⟨14, _⟩ => ⟨S512x32, .f32⟩
  | .hbm, ⟨15, _⟩ => ⟨S_, .i32⟩
  | .hbm, ⟨16, _⟩ => ⟨S1, .i32⟩
  | .hbm, ⟨17, _⟩ => ⟨S512x128, .f32⟩
  | .hbm, ⟨18, _⟩ => ⟨S1x1x32, .f32⟩
  | .hbm, ⟨19, _⟩ => ⟨S1x32, .f32⟩
  | .hbm, ⟨20, _⟩ => ⟨S_, .i32⟩
  | .hbm, ⟨21, _⟩ => ⟨S1, .i32⟩
  | .hbm, ⟨22, _⟩ => ⟨S1x128, .f32⟩
  | .hbm, ⟨23, _⟩ => ⟨S1x32x16, .f32⟩
  | .hbm, ⟨24, _⟩ => ⟨S32x16, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S128x128, .f32⟩
  | .hbm, ⟨31, _⟩ => ⟨S1x1x16, .f32⟩
  | .hbm, ⟨32, _⟩ => ⟨S1x16, .f32⟩
  | .hbm, ⟨33, _⟩ => ⟨S_, .i32⟩
  | .hbm, ⟨34, _⟩ => ⟨S1, .i32⟩
  | .hbm, ⟨35, _⟩ => ⟨S1x128, .f32⟩
  | .hbm, ⟨36, _⟩ => ⟨S1x512x32, .f32⟩
  | .hbm, ⟨37, _⟩ => ⟨S512x32, .f32⟩
  | .hbm, ⟨38, _⟩ => ⟨S_, .i32⟩
  | .hbm, ⟨39, _⟩ => ⟨S1, .i32⟩
  | .hbm, ⟨40, _⟩ => ⟨S512x128, .f32⟩
  | .hbm, ⟨41, _⟩ => ⟨S1x1x32, .f32⟩
  | .hbm, ⟨42, _⟩ => ⟨S1x32, .f32⟩
  | .hbm, ⟨43, _⟩ => ⟨S_, .i32⟩
  | .hbm, ⟨44, _⟩ => ⟨S1, .i32⟩
  | .hbm, ⟨45, _⟩ => ⟨S1x128, .f32⟩
  | .hbm, ⟨46, _⟩ => ⟨S1x32x16, .f32⟩
  | .hbm, ⟨47, _⟩ => ⟨S32x16, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S128x128, .f32⟩
  | .hbm, ⟨54, _⟩ => ⟨S1x1x16, .f32⟩
  | .hbm, ⟨55, _⟩ => ⟨S1x16, .f32⟩
  | .hbm, ⟨56, _⟩ => ⟨S_, .i32⟩
  | .hbm, ⟨57, _⟩ => ⟨S1, .i32⟩
  | .hbm, ⟨58, _⟩ => ⟨S1x128, .f32⟩
  | .hbm, ⟨59, _⟩ => ⟨S1x512x32, .f32⟩
  | .hbm, ⟨60, _⟩ => ⟨S512x32, .f32⟩
  | .hbm, ⟨61, _⟩ => ⟨S_, .i32⟩
  | .hbm, ⟨62, _⟩ => ⟨S1, .i32⟩
  | .hbm, ⟨63, _⟩ => ⟨S512x128, .f32⟩
  | .hbm, ⟨64, _⟩ => ⟨S1x1x32, .f32⟩
  | .hbm, ⟨65, _⟩ => ⟨S1x32, .f32⟩
  | .hbm, ⟨66, _⟩ => ⟨S_, .i32⟩
  | .hbm, ⟨67, _⟩ => ⟨S1, .i32⟩
  | .hbm, ⟨68, _⟩ => ⟨S1x128, .f32⟩
  | .hbm, ⟨69, _⟩ => ⟨S1x32x16, .f32⟩
  | .hbm, ⟨70, _⟩ => ⟨S32x16, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S2, .i32⟩
  | .hbm, ⟨76, _⟩ => ⟨S128x128, .f32⟩
  | .hbm, ⟨77, _⟩ => ⟨S1x1x16, .f32⟩
  | .hbm, ⟨78, _⟩ => ⟨S1x16, .f32⟩
  | .hbm, ⟨79, _⟩ => ⟨S_, .i32⟩
  | .hbm, ⟨80, _⟩ => ⟨S1, .i32⟩
  | .hbm, ⟨81, _⟩ => ⟨S1x128, .f32⟩
  | .hbm, ⟨82, _⟩ => ⟨S8192x128, .f32⟩
  | .hbm, ⟨83, _⟩ => ⟨S8192x8192, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .f32⟩
  | .local _ .vmem, ⟨13, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_9 : Ref sig .tc := ⟨.hbm, 48, rfl⟩
abbrev main_v32 : Ref sig .tc := ⟨.hbm, 49, rfl⟩
abbrev main_c_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_14 : Ref sig .tc := ⟨.hbm, 71, rfl⟩
abbrev main_v50 : Ref sig .tc := ⟨.hbm, 72, rfl⟩
abbrev main_c_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_16 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S512x128 : S_.BroadcastsInDim S512x128 (![] : Fin 0 → Fin S512x128.rank)
  bcast_S_S1x128 : S_.BroadcastsInDim S1x128 (![] : Fin 0 → Fin S1x128.rank)
  bcast_S_S128x128 : S_.BroadcastsInDim S128x128 (![] : Fin 0 → Fin S128x128.rank)
  slices_S3x512x32_S1x512x32_0_0_0 : S3x512x32.Slices ![0, 0, 0] S1x512x32
  shapeCasts_S1x512x32_S512x32 : S1x512x32.ShapeCasts S512x32
  bcast_S_S1 : S_.BroadcastsInDim S1 (![] : Fin 0 → Fin S1.rank)
  slices_S3x1x32_S1x1x32_0_0_0 : S3x1x32.Slices ![0, 0, 0] S1x1x32
  shapeCasts_S1x1x32_S1x32 : S1x1x32.ShapeCasts S1x32
  slices_S3x32x16_S1x32x16_0_0_0 : S3x32x16.Slices ![0, 0, 0] S1x32x16
  shapeCasts_S1x32x16_S32x16 : S1x32x16.ShapeCasts S32x16
  concatenates_S1_S1_S2_d0 : Shape.Concatenates [S1, S1] S2 0
  slices_S3x1x16_S1x1x16_0_0_0 : S3x1x16.Slices ![0, 0, 0] S1x1x16
  shapeCasts_S1x1x16_S1x16 : S1x1x16.ShapeCasts S1x16
  slices_S3x512x32_S1x512x32_1_0_0 : S3x512x32.Slices ![1, 0, 0] S1x512x32
  slices_S3x1x32_S1x1x32_1_0_0 : S3x1x32.Slices ![1, 0, 0] S1x1x32
  slices_S3x32x16_S1x32x16_1_0_0 : S3x32x16.Slices ![1, 0, 0] S1x32x16
  slices_S3x1x16_S1x1x16_1_0_0 : S3x1x16.Slices ![1, 0, 0] S1x1x16
  slices_S3x512x32_S1x512x32_2_0_0 : S3x512x32.Slices ![2, 0, 0] S1x512x32
  slices_S3x1x32_S1x1x32_2_0_0 : S3x1x32.Slices ![2, 0, 0] S1x1x32
  slices_S3x32x16_S1x32x16_2_0_0 : S3x32x16.Slices ![2, 0, 0] S1x32x16
  slices_S3x1x16_S1x1x16_2_0_0 : S3x1x16.Slices ![2, 0, 0] S1x1x16
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S512x128_S1_S512x32_01_n_1_0_wf : ScatterDims.WF S512x128 S1 S512x32 [0, 1] [] [1] 0
  scatter_S1x128_S1_S1x32_01_n_1_0_wf : ScatterDims.WF S1x128 S1 S1x32 [0, 1] [] [1] 0
  scatter_S128x128_S2_S32x16_01_n_01_0_wf : ScatterDims.WF S128x128 S2 S32x16 [0, 1] [] [0, 1] 0
  scatter_S1x128_S1_S1x16_01_n_1_0_wf : ScatterDims.WF S1x128 S1 S1x16 [0, 1] [] [1] 0
  dot_S512x512_S512x128_S512x128_1_0_0_1_n_n_wf : DotDims.WF S512x512 S512x128 S512x128 [1] [0] [0] [1] [] []
  dot_S512x128_S128x128_S512x128_1_0_0_1_n_n_wf : DotDims.WF S512x128 S128x128 S512x128 [1] [0] [0] [1] [] []
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S8192x128.size a
  hwx0_5 : ∀ i : grid0.Coords, EltTy.bits .f32 = 32 ∨ (Rect.block (s := S8192x128) S512x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x128.size a
  hwx1_0 : ∀ i : grid1.Coords, EltTy.bits .f32 = 32 ∨ (Rect.block (s := S8192x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .f32 = 32 ∨ (Rect.block (s := S8192x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x8192.size a
  hwx1_2 : ∀ i : grid1.Coords, EltTy.bits .f32 = 32 ∨ (Rect.block (s := S8192x8192) S512x512.size (cc1_transform_2 i) (hinb1_2 i)).WholeWords (EltTy.packing .f32)

variable [Facts₀]

def scatter_S512x128_S1_S512x32_01_n_1_0 : ScatterDims S512x128 S1 S512x32 where
  updateWindowDims := [0, 1]
  insertedWindowDims := []
  scatterDimsToOperandDims := [1]
  indexVectorDim := 0
  wf := scatter_S512x128_S1_S512x32_01_n_1_0_wf
def scatter_S1x128_S1_S1x32_01_n_1_0 : ScatterDims S1x128 S1 S1x32 where
  updateWindowDims := [0, 1]
  insertedWindowDims := []
  scatterDimsToOperandDims := [1]
  indexVectorDim := 0
  wf := scatter_S1x128_S1_S1x32_01_n_1_0_wf
def scatter_S128x128_S2_S32x16_01_n_01_0 : ScatterDims S128x128 S2 S32x16 where
  updateWindowDims := [0, 1]
  insertedWindowDims := []
  scatterDimsToOperandDims := [0, 1]
  indexVectorDim := 0
  wf := scatter_S128x128_S2_S32x16_01_n_01_0_wf
def scatter_S1x128_S1_S1x16_01_n_1_0 : ScatterDims S1x128 S1 S1x16 where
  updateWindowDims := [0, 1]
  insertedWindowDims := []
  scatterDimsToOperandDims := [1]
  indexVectorDim := 0
  wf := scatter_S1x128_S1_S1x16_01_n_1_0_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v58) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.Spec.lean ====
/-
  What both programs compute, as one function of the five argument arrays.

  Three relations r = 0, 1, 2 each carry a two-layer perceptron with weights w1[r] (512 x 32), b1[r] (1 x 32),
  w2[r] (32 x 16), b2[r] (1 x 16). The three are packed side by side into one perceptron of width 128:
  the first layer's weight matrix holds w1[r] in columns 32 r .. 32 r + 31 and zeros in columns 96 .. 127, its bias
  likewise; the second layer's weight matrix is block diagonal, w2[r] sitting in rows 32 r .. 32 r + 31 and columns
  16 r .. 16 r + 15 and zeros elsewhere, its bias holds b2[r] in columns 16 r .. 16 r + 15 and zeros from column 48 on.
  With leaky(x) = x if x > 0 else c x (c the float 0x3C23D70A), the node features are
      T(i, q) = leaky (sum_k leaky (sum_d z(i, d) W1(d, k) + B1(k)) W2(k, q) + B2(q)),
  and the result is the Gram matrix  G(i, j) = sum_k T(i, k) T(j, k).
-/
import Idealize.ShloMosaic.PureOps.Ideal
import Idealize.ShloMosaic.PureOps.Ideal.Laws
import Idealize.ShloMosaic.Lib.ValueIdx
import Idealize.ShloMosaic.Lib.ValueLayout
import proofs.«150386_g2000204067356750_pallasbulk_973_23_alg».proof.Proof.LibPlainDot

noncomputable section
open scoped BigOperators
namespace Cert.Spec
open Idealize.ShloMosaic Idealize.ShloMosaic.ValueIdx

abbrev ShZ : Shape := ⟨2, ![8192, 512]⟩
abbrev ShW1 : Shape := ⟨3, ![3, 512, 32]⟩
abbrev ShB1 : Shape := ⟨3, ![3, 1, 32]⟩
abbrev ShW2 : Shape := ⟨3, ![3, 32, 16]⟩
abbrev ShB2 : Shape := ⟨3, ![3, 1, 16]⟩
abbrev ShPW1 : Shape := ⟨2, ![512, 128]⟩
abbrev ShRow : Shape := ⟨2, ![1, 128]⟩
abbrev ShPW2 : Shape := ⟨2, ![128, 128]⟩
abbrev ShT : Shape := ⟨2, ![8192, 128]⟩
abbrev ShOut : Shape := ⟨2, ![8192, 8192]⟩

/-! ## The packed weights -/

/-- Entry (d, q) of the packed first-layer weights: relation q / 32, column q % 32, for q < 96; zero beyond. -/
def packW1At (w : ShW1.Idx → EReal) (d : Fin 512) (q : Fin 128) : EReal :=
  if h : q.val < 96 then w (ix3 (⟨q.val / 32, by omega⟩ : Fin 3) d (⟨q.val % 32, by omega⟩ : Fin 32)) else 0

/-- Entry q of the packed first-layer bias. -/
def packB1At (b : ShB1.Idx → EReal) (q : Fin 128) : EReal :=
  if h : q.val < 96 then b (ix3 (⟨q.val / 32, by omega⟩ : Fin 3) (0 : Fin 1) (⟨q.val % 32, by omega⟩ : Fin 32)) else 0

/-- Entry (k, q) of the block-diagonal second-layer weights: inside block r = k / 32 = q / 16 it is
    w2[r](k % 32, q % 16); off the three blocks it is zero. -/
def packW2At (w : ShW2.Idx → EReal) (k : Fin 128) (q : Fin 128) : EReal :=
  if h : k.val < 96 ∧ q.val < 48 ∧ k.val / 32 = q.val / 16 then
    w (ix3 (⟨k.val / 32, by omega⟩ : Fin 3) (⟨k.val % 32, by omega⟩ : Fin 32) (⟨q.val % 16, by omega⟩ : Fin 16))
  else 0

/-- Entry q of the packed second-layer bias. -/
def packB2At (b : ShB2.Idx → EReal) (q : Fin 128) : EReal :=
  if h : q.val < 48 then b (ix3 (⟨q.val / 16, by omega⟩ : Fin 3) (0 : Fin 1) (⟨q.val % 16, by omega⟩ : Fin 16)) else 0

def packW1 (w : ShW1.Idx → EReal) : FVec Ideal ShPW1 .f32 := fun j => packW1At w (j 0) (j 1)
def packB1 (b : ShB1.Idx → EReal) : FVec Ideal ShRow .f32 := fun j => packB1At b (j 1)
def packW2 (w : ShW2.Idx → EReal) : FVec Ideal ShPW2 .f32 := fun j => packW2At w (j 0) (j 1)
def packB2 (b : ShB2.Idx → EReal) : FVec Ideal ShRow .f32 := fun j => packB2At b (j 1)

/-! ## The perceptron, one row at a time -/

/-- x if x > 0, else c x. -/
def leaky (x : Ideal .f32) : Ideal .f32 :=
  Scalar.select (FloatOps.cmpf (F := Ideal) .ogt x (Scalar.ofBits (F := Ideal) .f32 0x00000000#32)) x
    (Scalar.ofBits (F := Ideal) .f32 0x3C23D70A#32 * x)

/-- The same on every entry of an array. -/
def leakyV {s : Shape} (x : FVec Ideal s .f32) : FVec Ideal s .f32 :=
  select (cmpf .ogt x (broadcast s (Scalar.ofBits (F := Ideal) .f32 0x00000000#32))) x
    (mulf (broadcast s (Scalar.ofBits (F := Ideal) .f32 0x3C23D70A#32)) x)

theorem leakyV_apply {s : Shape} (x : FVec Ideal s .f32) (i : s.Idx) : leakyV x i = leaky (x i) := rfl

/-- Column q of the perceptron's output on one row of features. -/
def mlpAt (zrow : Fin 512 → EReal) (W1 : FVec Ideal ShPW1 .f32) (B1 : FVec Ideal ShRow .f32)
    (W2 : FVec Ideal ShPW2 .f32) (B2 : FVec Ideal ShRow .f32) (q : Fin 128) : EReal :=
  leaky ((∑ k : Fin 128, leaky ((∑ d : Fin 512, zrow d * W1 (ix2 d k)) + B1 (ix2 (0 : Fin 1) k)) * W2 (ix2 k q))
    + B2 (ix2 (0 : Fin 1) q))

/-- The perceptron on a block of A rows, as the two matrix products into zero accumulators, the two bias rows
    broadcast over the rows, and the two leaky steps. -/
def mlpVec {A : Nat} (dA : PlainDot.Dot2 A 512 128) (dB : PlainDot.Dot2 A 128 128)
    (hb : ShRow.Broadcasts (⟨2, ![A, 128]⟩ : Shape))
    (x : FVec Ideal (⟨2, ![A, 512]⟩ : Shape) .f32) (W1 : FVec Ideal ShPW1 .f32) (B1 : FVec Ideal ShRow .f32)
    (W2 : FVec Ideal ShPW2 .f32) (B2 : FVec Ideal ShRow .f32) : FVec Ideal (⟨2, ![A, 128]⟩ : Shape) .f32 :=
  leakyV (addf (matmul dB none
      (leakyV (addf (matmul dA none x W1 (constant (F := Ideal) (⟨2, ![A, 128]⟩ : Shape) .f32 0x00000000#32))
        (broadcastTo (⟨2, ![A, 128]⟩ : Shape) B1 hb)))
      W2 (constant (F := Ideal) (⟨2, ![A, 128]⟩ : Shape) .f32 0x00000000#32))
    (broadcastTo (⟨2, ![A, 128]⟩ : Shape) B2 hb))

/-! ## The node features and their Gram matrix -/

def T (z : ShZ.Idx → EReal) (w1 : ShW1.Idx → EReal) (b1 : ShB1.Idx → EReal) (w2 : ShW2.Idx → EReal)
    (b2 : ShB2.Idx → EReal) : ShT.Idx → EReal :=
  fun j => mlpAt (fun d => z (ix2 (j 0) d)) (packW1 w1) (packB1 b1) (packW2 w2) (packB2 b2) (j 1)

def G (z : ShZ.Idx → EReal) (w1 : ShW1.Idx → EReal) (b1 : ShB1.Idx → EReal) (w2 : ShW2.Idx → EReal)
    (b2 : ShB2.Idx → EReal) : ShOut.Idx → EReal :=
  fun j => ∑ k : Fin 128, T z w1 b1 w2 b2 (ix2 (j 0) k) * T z w1 b1 w2 b2 (ix2 (j 1) k)

end Cert.Spec
-- ==== Proof.KernelTerms.lean ====
/-
  The kernel's perceptron body, regrouped: the packed second-layer weights and bias it builds from its loads are
  named, and the value it stores is the perceptron on the block of rows, narrowed to the storage format.
-/
import proofs.«150386_g2000204067356750_pallasbulk_973_23_alg».proof.Proof.Gen.KernelIdeal.Skeleton
import proofs.«150386_g2000204067356750_pallasbulk_973_23_alg».proof.Proof.Spec

noncomputable section

namespace Cert.KernelIdeal.Hand

open Idealize.ShloMosaic Idealize.SL.Sem
open Cert.KernelIdeal Cert.KernelIdeal.Gen
open Cert.KernelIdeal.Facts₀ Cert.KernelIdeal.Facts

variable {F : FTy → Type} [FloatOps F]

/-- The block-diagonal second-layer weights as the body assembles them: three row blocks, the third one's
    nonzero part built in place, and a fourth block of zeros, stacked along the rows. -/
def kW2 (v19 v24 : FVec F S32x128 .f32) (v25 : FVec F S32x32 .f32) (v26 : Vec F S1x32x16 .f32) : FVec F S128x128 .f32 :=
  concatenate S128x128 0 [⟨S32x128, v19⟩, ⟨S32x128, v24⟩,
    ⟨S32x128, concatenate S32x128 1 [⟨S32x32, v25⟩, ⟨S32x16, shapeCast S32x16 v26 Facts₀.shapeCasts_S1x32x16_S32x16⟩,
      ⟨S32x80, broadcast S32x80 (Scalar.ofBits .f32 0x00000000#32)⟩] Facts₀.concatenates_S32x32_S32x16_S32x80_S32x128_d1⟩,
    ⟨S32x128, broadcast S32x128 (Scalar.ofBits .f32 0x00000000#32)⟩] Facts₀.concatenates_S32x128_S32x128_S32x128_S32x128_S128x128_d0

/-- The packed second-layer bias as the body assembles it: the three relations' rows side by side, then zeros. -/
def kB2 (v32 v34 v36 : Vec F S1x1x16 .f32) : FVec F S1x128 .f32 :=
  concatenate S1x128 1 [⟨S1x16, shapeCast S1x16 v32 Facts₀.shapeCasts_S1x1x16_S1x16⟩, ⟨S1x16, shapeCast S1x16 v34 Facts₀.shapeCasts_S1x1x16_S1x16⟩,
    ⟨S1x16, shapeCast S1x16 v36 Facts₀.shapeCasts_S1x1x16_S1x16⟩, ⟨S1x80, broadcast S1x80 (Scalar.ofBits .f32 0x00000000#32)⟩]
    Facts₀.concatenates_S1x16_S1x16_S1x16_S1x80_S1x128_d1

/-- What the body stores is the perceptron on its block of 2048 rows, with the packed weights it assembled. -/
theorem k0_pay1_eq (v7 : FVec Ideal S512x128 .f32) (v15 : FVec Ideal S1x128 .f32) (v19 v24 : FVec Ideal S32x128 .f32)
    (v25 : FVec Ideal S32x32 .f32) (v26 : Vec Ideal S1x32x16 .f32) (v32 v34 v36 : Vec Ideal S1x1x16 .f32) (v40 : Vec Ideal S2048x512 .f32) :
    k0_pay1 v7 v15 v19 v24 v25 v26 v32 v34 v36 v40
      = truncf .bf16 (Cert.Spec.mlpVec (A := 2048) dot_S2048x512_S512x128_S2048x128_1_0_0_1_n_n dot_S2048x128_S128x128_S2048x128_1_0_0_1_n_n
          Facts₀.broadcasts_S1x128_S2048x128 v40 v7 v15 (kW2 v19 v24 v25 v26) (kB2 v32 v34 v36)) Facts₀.bitsLt_bf16_f32 := rfl

end Cert.KernelIdeal.Hand

end
-- ==== Proof.LibTransDot.lean ====
/-
  A matrix product against a transposed right operand, read at an entry.

  For a contraction of an [A, K] array with a [B, K] array over their second axes — no batch axes, the rows of both
  operands kept — the (p, q) entry is the sum over k < K of left (p, k) times right (q, k): the left operand times the
  transpose of the right one. This holds for the product taken on the host and, into a zero accumulator, for the product
  taken in the kernel; both are stated here as sums over `Fin K`.
-/
import Idealize.ShloMosaic.Lib.ValueIdx
import Idealize.ShloMosaic.PureOps.Ideal.Laws

noncomputable section
open scoped BigOperators
namespace Cert.TransDot
open Idealize.ShloMosaic Idealize.ShloMosaic.ValueIdx

variable {A K B : Nat}

/-- The dimension numbers of an [A, K] by [B, K] product. -/
abbrev DotT (A K B : Nat) : Type :=
  DotDims (⟨2, ![A, K]⟩ : Shape) (⟨2, ![B, K]⟩ : Shape) (⟨2, ![A, B]⟩ : Shape)

/-- Both operands' second axes meet; both first axes are kept; nothing is batched. -/
structure IsTrans (d : DotT A K B) : Prop where
  lc : d.lhsContracting = [1]
  rc : d.rhsContracting = [1]
  ln : d.lhsNonContracting = [0]
  rn : d.rhsNonContracting = [0]
  lb : d.lhsBatch = []
  rb : d.rhsBatch = []

section Coordinates
variable (wf : DotDims.WF (⟨2, ![A, K]⟩ : Shape) (⟨2, ![B, K]⟩ : Shape) (⟨2, ![A, B]⟩ : Shape) [1] [1] [0] [0] [] [])

/-- The left operand's row is the entry's row. -/
theorem lhs0 (i : (⟨2, ![A, B]⟩ : Shape).Idx) (q : (⟨[1], [1], [0], [0], [], [], wf⟩ : DotT A K B).contr.Idx) :
    ((⟨[1], [1], [0], [0], [], [], wf⟩ : DotT A K B).lhsIdx i q 0).val = (i 0).val := by
  unfold DotDims.lhsIdx
  rw [dif_neg (show ¬(0 : Fin 2) ∈ (⟨[1], [1], [0], [0], [], [], wf⟩ : DotT A K B).lhsBatch from List.not_mem_nil),
    dif_pos (show (0 : Fin 2) ∈ (⟨[1], [1], [0], [0], [], [], wf⟩ : DotT A K B).lhsNonContracting from List.mem_singleton.mpr rfl)]
  rfl

/-- The left operand's column is the contracted index. -/
theorem lhs1 (i : (⟨2, ![A, B]⟩ : Shape).Idx) (q : (⟨[1], [1], [0], [0], [], [], wf⟩ : DotT A K B).contr.Idx) :
    ((⟨[1], [1], [0], [0], [], [], wf⟩ : DotT A K B).lhsIdx i q 1).val = (q ⟨0, Nat.one_pos⟩).val :=
  (⟨[1], [1], [0], [0], [], [], wf⟩ : DotT A K B).lhsIdx_val_of_single rfl i q

/-- The right operand's row is the entry's column. -/
theorem rhs0 (i : (⟨2, ![A, B]⟩ : Shape).Idx) (q : (⟨[1], [1], [0], [0], [], [], wf⟩ : DotT A K B).contr.Idx) :
    ((⟨[1], [1], [0], [0], [], [], wf⟩ : DotT A K B).rhsIdx i q 0).val = (i 1).val := by
  unfold DotDims.rhsIdx
  rw [dif_neg (show ¬(0 : Fin 2) ∈ (⟨[1], [1], [0], [0], [], [], wf⟩ : DotT A K B).rhsBatch from List.not_mem_nil),
    dif_pos (show (0 : Fin 2) ∈ (⟨[1], [1], [0], [0], [], [], wf⟩ : DotT A K B).rhsNonContracting from List.mem_singleton.mpr rfl)]
  rfl

/-- The right operand's column is the contracted index. -/
theorem rhs1 (i : (⟨2, ![A, B]⟩ : Shape).Idx) (q : (⟨[1], [1], [0], [0], [], [], wf⟩ : DotT A K B).contr.Idx) :
    ((⟨[1], [1], [0], [0], [], [], wf⟩ : DotT A K B).rhsIdx i q 1).val = (q ⟨0, Nat.one_pos⟩).val :=
  (⟨[1], [1], [0], [0], [], [], wf⟩ : DotT A K B).rhsIdx_val_of_single rfl i q

end Coordinates

/-- The sum over the contracted index, re-indexed by `Fin K`, with the operand entries named by their coordinates. -/
theorem sum_contr (d : DotT A K B) (hd : IsTrans d) (l : (⟨2, ![A, K]⟩ : Shape).Idx → EReal)
    (r : (⟨2, ![B, K]⟩ : Shape).Idx → EReal) (i : (⟨2, ![A, B]⟩ : Shape).Idx) :
    ∑ q : d.contr.Idx, l (d.lhsIdx i q) * r (d.rhsIdx i q) = ∑ k : Fin K, l (ix2 (i 0) k) * r (ix2 (i 1) k) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [1], [0], [0], [], [], wf⟩ : DotT A K B) K rfl rfl).symm]
  refine Finset.sum_congr rfl fun k _ => ?_
  have hk := contrEquiv1_symm_val (⟨[1], [1], [0], [0], [], [], wf⟩ : DotT A K B) K rfl rfl k
  have el : (⟨[1], [1], [0], [0], [], [], wf⟩ : DotT A K B).lhsIdx i
      ((contrEquiv1 (⟨[1], [1], [0], [0], [], [], wf⟩ : DotT A K B) K rfl rfl).symm k) = ix2 (i 0) k :=
    funext fun a => Fin.ext (by
      match a with
      | ⟨0, _⟩ => exact lhs0 wf _ _
      | ⟨1, _⟩ => exact (lhs1 wf _ _).trans hk)
  have er : (⟨[1], [1], [0], [0], [], [], wf⟩ : DotT A K B).rhsIdx i
      ((contrEquiv1 (⟨[1], [1], [0], [0], [], [], wf⟩ : DotT A K B) K rfl rfl).symm k) = ix2 (i 1) k :=
    funext fun a => Fin.ext (by
      match a with
      | ⟨0, _⟩ => exact rhs0 wf _ _
      | ⟨1, _⟩ => exact (rhs1 wf _ _).trans hk)
  exact congrArg₂ (· * ·) (congrArg l el) (congrArg r er)

/-- The host's product at an entry. -/
theorem dotGeneral_trans {φ₁ φ₂ : FTy} (d : DotT A K B) (hd : IsTrans d) (prec : Option ContractPrecision) (sched : HostSchedule)
    (l : FVec Ideal (⟨2, ![A, K]⟩ : Shape) φ₁) (r : FVec Ideal (⟨2, ![B, K]⟩ : Shape) φ₂) (i : (⟨2, ![A, B]⟩ : Shape).Idx) :
    FloatOps.dotGeneral d prec sched l r i = ∑ k : Fin K, l (ix2 (i 0) k) * r (ix2 (i 1) k) := by
  rw [Ideal.dotGeneral_apply]
  exact sum_contr d hd l r i

/-- The kernel's product into a zero accumulator at an entry. -/
theorem matmul_zero_trans {φ₁ φ₂ : FTy} (d : DotT A K B) (hd : IsTrans d) (prec : Option ContractPrecision)
    (l : FVec Ideal (⟨2, ![A, K]⟩ : Shape) φ₁) (r : FVec Ideal (⟨2, ![B, K]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 (i 1) k) := by
  rw [Ideal.matmul_constant_zero_apply]
  exact sum_contr d hd l r i

end Cert.TransDot
-- ==== Proof.SpecLemmas.lean ====
/-
  The perceptron on a block of rows, and the product of two blocks of rows, read at an entry.

  Row p of the perceptron's output depends on row p of the block alone: entry (p, q) is the row formula mlpAt on that
  row. Entry (p, q) of a block of rows against the transpose of another is the sum over the 128 columns of the
  products of row p of the first with row q of the second.
-/
import proofs.«150386_g2000204067356750_pallasbulk_973_23_alg».proof.Proof.Spec
import proofs.«150386_g2000204067356750_pallasbulk_973_23_alg».proof.Proof.LibTransDot
import Idealize.ShloMosaic.Lib.Pipeline.Value

noncomputable section
open scoped BigOperators
namespace Cert.Spec
open Idealize.ShloMosaic Idealize.ShloMosaic.ValueIdx

/-- Entry (p, q) of the perceptron on a block of A rows is the row formula on row p. -/
theorem mlpVec_apply {A : Nat} (dA : PlainDot.Dot2 A 512 128) (hA : PlainDot.IsPlain dA) (dB : PlainDot.Dot2 A 128 128)
    (hB : PlainDot.IsPlain dB) (hb : ShRow.Broadcasts (⟨2, ![A, 128]⟩ : Shape))
    (x : FVec Ideal (⟨2, ![A, 512]⟩ : Shape) .f32) (W1 : FVec Ideal ShPW1 .f32) (B1 : FVec Ideal ShRow .f32)
    (W2 : FVec Ideal ShPW2 .f32) (B2 : FVec Ideal ShRow .f32) (p : Fin A) (q : Fin 128) :
    mlpVec dA dB hb x W1 B1 W2 B2 (ix2 p q) = mlpAt (fun d => x (ix2 p d)) W1 B1 W2 B2 q := by
  unfold mlpVec mlpAt
  rw [leakyV_apply, addf_apply]
  refine congrArg leaky (congrArg₂ (· + ·) ?_ (broadcastTo_1b_ab_apply B2 hb p q))
  refine (PlainDot.matmul_zero_plain dB hB none _ W2 (ix2 p q)).trans ?_
  refine Finset.sum_congr rfl fun k _ => ?_
  refine congrArg (· * W2 (ix2 k q)) ?_
  show leakyV _ (ix2 p k) = _
  rw [leakyV_apply, addf_apply]
  refine congrArg leaky (congrArg₂ (· + ·) ?_ (broadcastTo_1b_ab_apply B1 hb p k))
  exact PlainDot.matmul_zero_plain dA hA none x W1 (ix2 p k)

/-- Entry (p, q) of a block of A rows against the transpose of a block of B rows, both through identity shape casts,
    into a zero accumulator. -/
theorem gramVec_apply {A B : Nat} {φ : FTy} (d : TransDot.DotT A 128 B) (hd : TransDot.IsTrans d)
    (x : FVec Ideal (⟨2, ![A, 128]⟩ : Shape) φ) (y : FVec Ideal (⟨2, ![B, 128]⟩ : Shape) φ)
    (hx : (⟨2, ![A, 128]⟩ : Shape).ShapeCasts ⟨2, ![A, 128]⟩) (hy : (⟨2, ![B, 128]⟩ : Shape).ShapeCasts ⟨2, ![B, 128]⟩)
    (p : Fin A) (q : Fin B) :
    matmul d none (shapeCast (⟨2, ![A, 128]⟩ : Shape) x hx) (shapeCast (⟨2, ![B, 128]⟩ : Shape) y hy)
        (constant (F := Ideal) (⟨2, ![A, B]⟩ : Shape) .f32 0x00000000#32) (ix2 p q)
      = ∑ k : Fin 128, x (ix2 p k) * y (ix2 q k) := by
  rw [shapeCast_self, shapeCast_self]
  exact TransDot.matmul_zero_trans d hd none x y (ix2 p q)

/-- Entry (i, j) of the Gram matrix of an array of node features. -/
def gramAt (T : ShT.Idx → EReal) (i j : Fin 8192) : EReal := ∑ k : Fin 128, T (ix2 i k) * T (ix2 j k)

theorem G_eq (z : ShZ.Idx → EReal) (w1 : ShW1.Idx → EReal) (b1 : ShB1.Idx → EReal) (w2 : ShW2.Idx → EReal)
    (b2 : ShB2.Idx → EReal) : G z w1 b1 w2 b2 = fun j => gramAt (T z w1 b1 w2 b2) (j 0) (j 1) := rfl

end Cert.Spec
-- ==== Proof.KernelMlp.lean ====
/-
  The kernel program's first call: what the array T holds when the call has run.

  Grid point t reads rows 2048 t .. 2048 t + 2047 of the node features and the four weight arrays whole, and writes
  back the same rows of T. Row p of what it writes is the row formula of the specification on row 2048 t + p of the
  features, with the packed weights the body assembles from the weight arrays. The four write-backs tile T, so T
  ends as that formula at every row.
-/
import proofs.«150386_g2000204067356750_pallasbulk_973_23_alg».proof.Proof.Gen.KernelIdeal.Frame
import proofs.«150386_g2000204067356750_pallasbulk_973_23_alg».proof.Proof.KernelTerms
import proofs.«150386_g2000204067356750_pallasbulk_973_23_alg».proof.Proof.SpecLemmas
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The packed weights as the body assembles them from the four weight arrays. -/
def kPW1 (x1 : Vec Ideal S3x512x32 .f32) : FVec Ideal S512x128 .f32 := k0_pay2 (View.ld x1 r0_0) (View.ld x1 r0_1) (View.ld x1 r0_2)
def kPB1 (x2 : Vec Ideal S3x1x32 .f32) : FVec Ideal S1x128 .f32 := k0_pay3 (View.ld x2 r0_3) (View.ld x2 r0_4) (View.ld x2 r0_5)
def kPW2 (x3 : Vec Ideal S3x32x16 .f32) : FVec Ideal S128x128 .f32 :=
  kW2 (k0_pay4 (View.ld x3 r0_6)) (k0_pay5 (View.ld x3 r0_7)) (k0_pay6 (F := Ideal)) (View.ld x3 r0_8)
def kPB2 (x4 : Vec Ideal S3x1x16 .f32) : FVec Ideal S1x128 .f32 := kB2 (View.ld x4 r0_9) (View.ld x4 r0_10) (View.ld x4 r0_11)

/-- Entry (p, q) of T: the row formula on row p of the features. -/
def TkAt (c : Dev nD) (p : Fin 8192) (q : Fin 128) : EReal :=
  Cert.Spec.mlpAt (fun d => (V c main_arg0 : S8192x512.Idx → EReal) (ix2 p d)) (kPW1 (V c main_arg1)) (kPB1 (V c main_arg2))
    (kPW2 (V c main_arg3)) (kPB2 (V c main_arg4)) q

/-- T as one function of the arrays the call finds. -/
def Tk (c : Dev nD) : S8192x128.Idx → EReal := fun j => TkAt V c (j 0) (j 1)

/-- The block indices of the windows, decided over the four grid points: the features and T move down one block of
    rows per point; the weight arrays are read whole. -/
theorem idx_facts0 : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t = ![0, 0, 0] ∧ win0_2.index t = ![0, 0, 0] ∧ win0_3.index t = ![0, 0, 0] ∧ win0_4.index t = ![0, 0, 0] :=
  (by decide +kernel : ∀ t : Fin grid0.N, _)

theorem t_lt (t : Fin cfg0.N) : t.val < 4 := Nat.lt_of_lt_of_eq t.isLt (show cfg0.N = 4 from N_0)

/-- The features' block at point t, at (p, d), is the features at row 2048 t + p. -/
theorem iblk_z (c : Dev nD) (t : Fin cfg0.N) (p : Fin 2048) (d : Fin 512) :
    (iblk0 V c 0 t : S2048x512.Idx → EReal) (ix2 p d)
      = (V c main_arg0 : S8192x512.Idx → EReal) (ix2 (⟨t.val * 2048 + p.val, by have := t_lt t; omega⟩ : Fin 8192) d) := by
  obtain ⟨e0, e1, -⟩ := idx_facts0 t
  unfold iblk0
  rw [View.read_apply]
  show V c main_arg0 (((cfg0.win 0).blk t).view.emb (ix2 p d)) = V c main_arg0 _
  refine congrArg (V c main_arg0) (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 512 + 1 * d.val = d.val; rw [e1]; omega

/-- Each weight array's block is the array. -/
theorem iblk_w1 (c : Dev nD) (t : Fin cfg0.N) : (iblk0 V c 1 t : S3x512x32.Idx → EReal) = V c main_arg1 := by
  obtain ⟨-, -, -, -, e, -⟩ := idx_facts0 t
  unfold iblk0
  funext x
  rw [View.read_apply]
  show V c main_arg1 (((cfg0.win 1).blk t).view.emb x) = V c main_arg1 x
  refine congrArg (V c main_arg1) (funext fun a => Fin.ext ?_)
  match a with
  | ⟨0, _⟩ => show win0_1.index t (0 : Fin 3) * 3 + 1 * (x 0).val = (x 0).val; rw [e]; show 0 * 3 + 1 * (x 0).val = _; omega
  | ⟨1, _⟩ => show win0_1.index t (1 : Fin 3) * 512 + 1 * (x 1).val = (x 1).val; rw [e]; show 0 * 512 + 1 * (x 1).val = _; omega
  | ⟨2, _⟩ => show win0_1.index t (2 : Fin 3) * 32 + 1 * (x 2).val = (x 2).val; rw [e]; show 0 * 32 + 1 * (x 2).val = _; omega
theorem iblk_w2 (c : Dev nD) (t : Fin cfg0.N) : (iblk0 V c 2 t : S3x1x32.Idx → EReal) = V c main_arg2 := by
  obtain ⟨-, -, -, -, -, e, -⟩ := idx_facts0 t
  unfold iblk0
  funext x
  rw [View.read_apply]
  show V c main_arg2 (((cfg0.win 2).blk t).view.emb x) = V c main_arg2 x
  refine congrArg (V c main_arg2) (funext fun a => Fin.ext ?_)
  match a with
  | ⟨0, _⟩ => show win0_2.index t (0 : Fin 3) * 3 + 1 * (x 0).val = (x 0).val; rw [e]; show 0 * 3 + 1 * (x 0).val = _; omega
  | ⟨1, _⟩ => show win0_2.index t (1 : Fin 3) * 1 + 1 * (x 1).val = (x 1).val; rw [e]; show 0 * 1 + 1 * (x 1).val = _; omega
  | ⟨2, _⟩ => show win0_2.index t (2 : Fin 3) * 32 + 1 * (x 2).val = (x 2).val; rw [e]; show 0 * 32 + 1 * (x 2).val = _; omega
theorem iblk_w3 (c : Dev nD) (t : Fin cfg0.N) : (iblk0 V c 3 t : S3x32x16.Idx → EReal) = V c main_arg3 := by
  obtain ⟨-, -, -, -, -, -, e, -⟩ := idx_facts0 t
  unfold iblk0
  funext x
  rw [View.read_apply]
  show V c main_arg3 (((cfg0.win 3).blk t).view.emb x) = V c main_arg3 x
  refine congrArg (V c main_arg3) (funext fun a => Fin.ext ?_)
  match a with
  | ⟨0, _⟩ => show win0_3.index t (0 : Fin 3) * 3 + 1 * (x 0).val = (x 0).val; rw [e]; show 0 * 3 + 1 * (x 0).val = _; omega
  | ⟨1, _⟩ => show win0_3.index t (1 : Fin 3) * 32 + 1 * (x 1).val = (x 1).val; rw [e]; show 0 * 32 + 1 * (x 1).val = _; omega
  | ⟨2, _⟩ => show win0_3.index t (2 : Fin 3) * 16 + 1 * (x 2).val = (x 2).val; rw [e]; show 0 * 16 + 1 * (x 2).val = _; omega
theorem iblk_w4 (c : Dev nD) (t : Fin cfg0.N) : (iblk0 V c 4 t : S3x1x16.Idx → EReal) = V c main_arg4 := by
  obtain ⟨-, -, -, -, -, -, -, e⟩ := idx_facts0 t
  unfold iblk0
  funext x
  rw [View.read_apply]
  show V c main_arg4 (((cfg0.win 4).blk t).view.emb x) = V c main_arg4 x
  refine congrArg (V c main_arg4) (funext fun a => Fin.ext ?_)
  match a with
  | ⟨0, _⟩ => show win0_4.index t (0 : Fin 3) * 3 + 1 * (x 0).val = (x 0).val; rw [e]; show 0 * 3 + 1 * (x 0).val = _; omega
  | ⟨1, _⟩ => show win0_4.index t (1 : Fin 3) * 1 + 1 * (x 1).val = (x 1).val; rw [e]; show 0 * 1 + 1 * (x 1).val = _; omega
  | ⟨2, _⟩ => show win0_4.index t (2 : Fin 3) * 16 + 1 * (x 2).val = (x 2).val; rw [e]; show 0 * 16 + 1 * (x 2).val = _; omega

/-- Where entry (p, q) of T's block at point t sits in T. -/
theorem emb_T (t : Fin cfg0.N) (p : Fin 2048) (q : Fin 128) :
    (((cfg0.win 5).blk t).view.emb (ix2 p q) : S8192x128.Idx)
      = ix2 (⟨t.val * 2048 + p.val, by have := t_lt t; omega⟩ : Fin 8192) q := by
  obtain ⟨-, -, e0, e1, -⟩ := idx_facts0 t
  refine funext fun a => Fin.ext ?_
  match a with
  | ⟨0, _⟩ => show win0_5.index t (0 : Fin 2) * 2048 + 1 * p.val = t.val * 2048 + p.val; rw [e0]; omega
  | ⟨1, _⟩ => show win0_5.index t (1 : Fin 2) * 128 + 1 * q.val = q.val; rw [e1]; omega

/-- What point t writes back is block t of Tk. -/
theorem flushed_T (c : Dev nD) (t : Fin cfg0.N) :
    (dat0 V c).flushed 5 t = ((cfg0.win 5).blk t).view.read (Elt Ideal) (Tk V c) := by
  show (cfg0.win 5).cut (grid0.coords t) ((dat0 V c).after 5 t) = _
  rw [after0_5]
  unfold out0_5
  rw [View.canon_unit_zero hz2]
  simp only [View.ld_unit_zero (S := S2048x512) hz2]
  rw [k0_pay1_eq]
  funext y
  obtain ⟨p, q, rfl⟩ : ∃ (p : Fin 2048) (q : Fin 128), y = ix2 p q := ⟨y 0, y 1, eq_ix2 y⟩
  rw [View.read_apply]
  refine (Cert.Spec.mlpVec_apply (A := 2048) dot_S2048x512_S512x128_S2048x128_1_0_0_1_n_n ⟨rfl, rfl, rfl, rfl, rfl, rfl⟩
    dot_S2048x128_S128x128_S2048x128_1_0_0_1_n_n ⟨rfl, rfl, rfl, rfl, rfl, rfl⟩ _ _ _ _ _ _ p q).trans ?_
  rw [emb_T t p q]
  show _ = TkAt V c _ q
  unfold TkAt
  rw [show (fun d => (iblk0 V c 0 t : S2048x512.Idx → EReal) (ix2 p d)) = fun d => (V c main_arg0 : S8192x512.Idx → EReal) (ix2 (⟨t.val * 2048 + p.val, by have := t_lt t; omega⟩ : Fin 8192) d)
    from funext fun d => iblk_z V c t p d]
  unfold kPW1 kPB1 kPW2 kPB2
  rw [iblk_w1 V c t, iblk_w2 V c t, iblk_w3 V c t, iblk_w4 V c t]

theorem mem_blk_T (t : Fin cfg0.N) (i : S8192x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v0).slice (win0_5.rect t)).set ↔ _
  rw [View.set_slice_whole, Rect.mem_set_unit]
  exact Iff.rfl

/-- Row r of T is written back by point r / 2048. -/
theorem cover_T (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  let t : Fin cfg0.N := ⟨(i 0).val / 2048, by rw [show cfg0.N = 4 from N_0]; omega⟩
  obtain ⟨-, -, e0, e1, -⟩ := idx_facts0 t
  refine ⟨t, flush0_5 t, ?_⟩
  rw [mem_blk_T]
  intro a
  match a with
  | ⟨0, _⟩ => show win0_5.index t (0 : Fin 2) * 2048 ≤ (i 0).val ∧ (i 0).val < win0_5.index t (0 : Fin 2) * 2048 + 2048; rw [e0]; show (i 0).val / 2048 * 2048 ≤ _ ∧ _ < (i 0).val / 2048 * 2048 + 2048; omega
  | ⟨1, _⟩ => show win0_5.index t (1 : Fin 2) * 128 ≤ (i 1).val ∧ (i 1).val < win0_5.index t (1 : Fin 2) * 128 + 128; rw [e1]; omega

/-- T when the first call has run. -/
theorem final_T (c : Dev nD) : (dat0 V c).arrAt 5 cfg0.N = Tk V c :=
  (dat0 V c).arrAt_eq_of_cover 5 (Tk V c) (fun t _ => flushed_T V c t) cover_T

end Cert.KernelIdeal.Hand

end
-- ==== Proof.KernelGram.lean ====
/-
  The kernel program's second call: what the result array holds when the call has run.

  Grid point t reads the whole array T and writes back rows 256 t .. 256 t + 255 of the result: the body takes the
  slab of T at those rows and multiplies it with the transpose of all of T. Entry (p, q) of what it writes is the sum
  over the 128 columns of T (256 t + p, k) T (q, k). The thirty-two write-backs tile the result.
-/
import proofs.«150386_g2000204067356750_pallasbulk_973_23_alg».proof.Proof.Gen.KernelIdeal.Frame
import proofs.«150386_g2000204067356750_pallasbulk_973_23_alg».proof.Proof.SpecLemmas
import Idealize.ShloMosaic.Lib.Pipeline.Value

set_option maxRecDepth 16384

noncomputable section
open scoped BigOperators

namespace Cert.KernelIdeal.Hand

open Idealize.ShloMosaic Idealize.ShloMosaic.TcCoe Idealize.SL.Sem Idealize.ShloMosaic.ValueIdx Idealize.ShloMosaic.Tactic
open Idealize.ShloMosaic.Pipeline (Dat)
open Cert.KernelIdeal Cert.KernelIdeal.Gen

theorem hz2g : (![0, 0] : Fin 2 → Nat) = fun _ => 0 := funext fun a => by fin_cases a <;> rfl

/-- What the body's one store leaves in the output buffer: the product of the slab of rows at its offset with the
    transpose of the whole input buffer. -/
theorem out1_eq {F : FTy → Type} [FloatOps F] (c : Dev nD) (i : grid1.Coords) (arg1 : Memref sig .tc .vmem S8192x128 .bf16) (harg1 : arg1.IsWhole) (arg2 : Memref sig .tc .vmem S256x8192 .f32) (harg2 : arg2.IsWhole)
    (x0 : Vec F S8192x128 .bf16) :
    out1_A_1 c i arg1 harg1 arg2 harg2 x0 = k1_pay1 (View.ld x0 (Rect.unit (s := S8192x128) (k1_off1 i) S256x128.size (Facts₀.k1_off1_inb i))) x0 := by
  unfold out1_A_1
  rw [View.read_writes_eq_canon _ _ _ (cover1_A_1 c i arg1 harg1 arg2 harg2 x0)]
  unfold kernelRun1_A
  dsimp only
  try sl_unfold_words
  rw [View.canon_unit_zero hz2g]
  simp only [View.readAt_eq_ld, harg1.read_unread, View.ld_unit_zero (S := S8192x128) hz2g]

variable (V : (c : Dev nD) → (b : Ref sig .tc) → Buf (Elt Ideal) ((c : Thread nD τ).loc b))

/-- The Gram matrix of the array T the call finds. -/
def Gk (c : Dev nD) : S8192x8192.Idx → EReal := fun j => Cert.Spec.gramAt (V c main_v0) (j 0) (j 1)

theorem idx_facts1 : ∀ t : Fin cfg1.N, win1_0.index t = ![0, 0]
    ∧ win1_1.index t (0 : Fin 2) = t.val ∧ win1_1.index t (1 : Fin 2) = 0 ∧ ((grid1.coords t) 0).val = t.val :=
  (by decide +kernel : ∀ t : Fin grid1.N, _)

theorem t1_lt (t : Fin cfg1.N) : t.val < 32 := Nat.lt_of_lt_of_eq t.isLt (show cfg1.N = 32 from N_1)

/-- The input window's block is the whole array T. -/
theorem iblk_T (c : Dev nD) (t : Fin cfg1.N) : (iblk1 V c 0 t : S8192x128.Idx → EReal) = V c main_v0 := by
  obtain ⟨e, -⟩ := idx_facts1 t
  unfold iblk1
  funext x
  rw [View.read_apply]
  show V c main_v0 (((cfg1.win 0).blk t).view.emb x) = V c main_v0 x
  refine congrArg (V c main_v0) (funext fun a => Fin.ext ?_)
  match a with
  | ⟨0, _⟩ => show win1_0.index t (0 : Fin 2) * 8192 + 1 * (x 0).val = (x 0).val; rw [e]; show 0 * 8192 + 1 * (x 0).val = _; omega
  | ⟨1, _⟩ => show win1_0.index t (1 : Fin 2) * 128 + 1 * (x 1).val = (x 1).val; rw [e]; show 0 * 128 + 1 * (x 1).val = _; omega

/-- Where entry (p, q) of the result's block at point t sits in the result. -/
theorem emb_G (t : Fin cfg1.N) (p : Fin 256) (q : Fin 8192) :
    (((cfg1.win 1).blk t).view.emb (ix2 p q) : S8192x8192.Idx)
      = ix2 (⟨t.val * 256 + p.val, by have := t1_lt t; omega⟩ : Fin 8192) q := by
  obtain ⟨-, e0, e1, -⟩ := idx_facts1 t
  refine funext fun a => Fin.ext ?_
  match a with
  | ⟨0, _⟩ => show win1_1.index t (0 : Fin 2) * 256 + 1 * p.val = t.val * 256 + p.val; rw [e0]; omega
  | ⟨1, _⟩ => show win1_1.index t (1 : Fin 2) * 8192 + 1 * q.val = q.val; rw [e1]; omega

/-- The slab the body loads at point t, at (p, k), is T at row 256 t + p. -/
theorem slab_apply (X : Vec Ideal S8192x128 .bf16) (t : Fin cfg1.N) (p : Fin 256) (k : Fin 128) :
    View.ld X (Rect.unit (s := S8192x128) (k1_off1 (grid1.coords t)) S256x128.size (Facts₀.k1_off1_inb (grid1.coords t))) (ix2 p k)
      = X (ix2 (⟨t.val * 256 + p.val, by have := t1_lt t; omega⟩ : Fin 8192) k) := by
  obtain ⟨-, -, -, ec⟩ := idx_facts1 t
  show X _ = X _
  refine congrArg X (funext fun a => Fin.ext ?_)
  match a with
  | ⟨0, _⟩ =>
    show (k1_off1 (grid1.coords t)) 0 + 1 * p.val = t.val * 256 + p.val
    rw [k1_off1_eq]; show 256 * ((grid1.coords t) 0).val + 1 * p.val = _; rw [ec]; omega
  | ⟨1, _⟩ =>
    show (k1_off1 (grid1.coords t)) 1 + 1 * k.val = k.val
    rw [k1_off1_eq]; show 0 + 1 * k.val = _; omega

/-- What point t writes back is block t of Gk. -/
theorem flushed_G (c : Dev nD) (t : Fin cfg1.N) :
    (dat1 V c).flushed 1 t = ((cfg1.win 1).blk t).view.read (Elt Ideal) (Gk V c) := by
  show (cfg1.win 1).cut (grid1.coords t) ((dat1 V c).after 1 t) = _
  rw [after1_1]
  unfold outsAt1
  rw [out1_eq, iblk_T V c t]
  funext y
  obtain ⟨p, q, rfl⟩ : ∃ (p : Fin 256) (q : Fin 8192), y = ix2 p q := ⟨y 0, y 1, eq_ix2 y⟩
  rw [View.read_apply, emb_G t p q]
  unfold k1_pay1
  refine (Cert.Spec.gramVec_apply (A := 256) (B := 8192) dot_S256x128_S8192x128_S256x8192_1_1_0_0_n_n ⟨rfl, rfl, rfl, rfl, rfl, rfl⟩ _ _ _ _ p q).trans ?_
  show _ = Cert.Spec.gramAt (V c main_v0) _ q
  unfold Cert.Spec.gramAt
  exact Finset.sum_congr rfl fun k _ => congrArg (· * _) (slab_apply (V c main_v0) t p k)

theorem mem_blk_G (t : Fin cfg1.N) (i : S8192x8192.Idx) :
    i ∈ ((cfg1.win 1).blk t).view.set ↔ ∀ a : Fin 2, win1_1.index t a * S256x8192.size a ≤ (i a).val ∧ (i a).val < win1_1.index t a * S256x8192.size a + S256x8192.size a := by
  show i ∈ ((View.whole main_v1).slice (win1_1.rect t)).set ↔ _
  rw [View.set_slice_whole, Rect.mem_set_unit]
  exact Iff.rfl

/-- Row r of the result is written back by point r / 256. -/
theorem cover_G (i : S8192x8192.Idx) : ∃ t : Fin cfg1.N, (cfg1.win 1).flush t = true ∧ i ∈ ((cfg1.win 1).blk t).view.set := by
  have hi0 : (i 0).val < 8192 := (i 0).isLt
  have hi1 : (i 1).val < 8192 := (i 1).isLt
  let t : Fin cfg1.N := ⟨(i 0).val / 256, by rw [show cfg1.N = 32 from N_1]; omega⟩
  obtain ⟨-, e0, e1, -⟩ := idx_facts1 t
  refine ⟨t, flush1_1 t, ?_⟩
  rw [mem_blk_G]
  intro a
  match a with
  | ⟨0, _⟩ => show win1_1.index t (0 : Fin 2) * 256 ≤ (i 0).val ∧ (i 0).val < win1_1.index t (0 : Fin 2) * 256 + 256; rw [e0]; show (i 0).val / 256 * 256 ≤ _ ∧ _ < (i 0).val / 256 * 256 + 256; omega
  | ⟨1, _⟩ => show win1_1.index t (1 : Fin 2) * 8192 ≤ (i 1).val ∧ (i 1).val < win1_1.index t (1 : Fin 2) * 8192 + 8192; rw [e1]; omega

/-- The result when the second call has run. -/
theorem final_G (c : Dev nD) : (dat1 V c).arrAt 1 cfg1.N = Gk V c :=
  (dat1 V c).arrAt_eq_of_cover 1 (Gk V c) (fun t _ => flushed_G V c t) cover_G

end Cert.KernelIdeal.Hand

end
-- ==== Proof.LibSlabLoad.lean ====
/-
  Two readings at an index used to compare assembled weight arrays with their closed forms.

  * A layer of a three-axis array, loaded as a block with a leading unit axis (or cut out as a slice with one) and
    cast to two axes, read at (p, q), is the array at (l, p, q).
  * A concatenation of two-axis pieces along the columns (along the rows), read at (p, q), is the piece whose span
    of columns (rows) holds q (p), read at the coordinate less the extents before it.
-/
import Idealize.ShloMosaic.Lib.Pipeline.Value
import Idealize.ShloMosaic.Lib.ValueIdx

noncomputable section

namespace Cert.SlabLoad

open Idealize.ShloMosaic Idealize.ShloMosaic.ValueIdx

variable {α : Type}

/-- Layer l of an [L, R, C] array, loaded through the unit-stride rectangle at (l, 0, 0) of extents [1, R, C] and
    cast to [R, C], read at (p, q), is the array at (l, p, q). -/
theorem slab_apply {Val : EltTy → Type} {e : EltTy} {L R C : Nat} (x : (⟨3, ![L, R, C]⟩ : Shape).Idx → Val e) (l : Nat) (hl : l < L)
    (inb : ∀ a, (![l, 0, 0] : Fin 3 → Nat) a + (⟨3, ![1, R, C]⟩ : Shape).size a ≤ (⟨3, ![L, R, C]⟩ : Shape).size a)
    (h : (⟨3, ![1, R, C]⟩ : Shape).ShapeCasts ⟨2, ![R, C]⟩) (p : Fin R) (q : Fin C) :
    shapeCast (⟨2, ![R, C]⟩ : Shape)
        (View.ld x (Rect.unit (s := (⟨3, ![L, R, C]⟩ : Shape)) ![l, 0, 0] (⟨3, ![1, R, C]⟩ : Shape).size inb)) h (ix2 p q)
      = x (ix3 (⟨l, hl⟩ : Fin L) p q) := by
  refine (shapeCast_dropUnit_apply (α := Val e) ![R, C] _ h (ix2 p q)).trans ?_
  show x _ = x _
  congr 1
  funext a
  apply Fin.ext
  match a with
  | ⟨0, _⟩ => show l + 1 * 0 = l; omega
  | ⟨1, _⟩ => show 0 + 1 * p.val = p.val; omega
  | ⟨2, _⟩ => show 0 + 1 * q.val = q.val; omega

/-- Layer l of an [L, R, C] array, cut out as the unit-stride slice at (l, 0, 0) of extents [1, R, C] and reshaped to
    [R, C], read at (p, q), is the array at (l, p, q). -/
theorem slice_slab_apply {L R C : Nat} (x : (⟨3, ![L, R, C]⟩ : Shape).Idx → α) (l : Nat) (hl : l < L)
    (hs : (⟨3, ![L, R, C]⟩ : Shape).Slices ![l, 0, 0] (⟨3, ![1, R, C]⟩ : Shape))
    (h : (⟨3, ![1, R, C]⟩ : Shape).ShapeCasts ⟨2, ![R, C]⟩) (p : Fin R) (q : Fin C) :
    shapeCast (⟨2, ![R, C]⟩ : Shape) (extractStridedSlice (⟨3, ![1, R, C]⟩ : Shape) ![l, 0, 0] x hs) h (ix2 p q)
      = x (ix3 (⟨l, hl⟩ : Fin L) p q) := by
  refine (shapeCast_dropUnit_apply (α := α) ![R, C] _ h (ix2 p q)).trans ?_
  refine extractStridedSlice_apply _ x hs _ (ix3 (⟨l, hl⟩ : Fin L) p q) fun a => ?_
  match a with
  | ⟨0, _⟩ => show l = l + 0; omega
  | ⟨1, _⟩ => show p.val = 0 + p.val; omega
  | ⟨2, _⟩ => show q.val = 0 + q.val; omega

/-- A concatenation along the columns read at (p, q): piece k, whose columns are pre ≤ q < pre + c, at (p, q - pre). -/
theorem concat_cols {R C : Nat} (xs : List ((s : Shape) × (s.Idx → α)))
    (h : Shape.Concatenates (xs.map (·.1)) (⟨2, ![R, C]⟩ : Shape) 1) (p : Fin R) (q : Fin C)
    (k : Nat) (hk : k < xs.length) (c : Nat) (x₁ : (⟨2, ![R, c]⟩ : Shape).Idx → α)
    (hxk : xs[k] = ⟨(⟨2, ![R, c]⟩ : Shape), x₁⟩) (pre : Nat)
    (hpre : (((xs.take k).map (·.1)).map fun s : Shape =>
        if h : s.rank = (⟨2, ![R, C]⟩ : Shape).rank then s.size ((1 : Fin 2).cast h.symm) else 0).sum = pre)
    (hlo : pre ≤ q.val) (hhi : q.val < pre + c) :
    concatenate (⟨2, ![R, C]⟩ : Shape) 1 xs h (ix2 p q) = x₁ (ix2 p (⟨q.val - pre, by omega⟩ : Fin c)) := by
  refine concatenate_apply_piece (1 : Fin 2) xs h (ix2 p q) k hk _ x₁ hxk rfl pre hpre _ ?_ ?_
  · intro b hb
    match b with
    | ⟨0, _⟩ => rfl
    | ⟨1, _⟩ => exact absurd rfl hb
  · show pre + (q.val - pre) = q.val
    omega

/-- A concatenation along the rows read at (p, q): piece k, whose rows are pre ≤ p < pre + r, at (p - pre, q). -/
theorem concat_rows {R C : Nat} (xs : List ((s : Shape) × (s.Idx → α)))
    (h : Shape.Concatenates (xs.map (·.1)) (⟨2, ![R, C]⟩ : Shape) 0) (p : Fin R) (q : Fin C)
    (k : Nat) (hk : k < xs.length) (r : Nat) (x₁ : (⟨2, ![r, C]⟩ : Shape).Idx → α)
    (hxk : xs[k] = ⟨(⟨2, ![r, C]⟩ : Shape), x₁⟩) (pre : Nat)
    (hpre : (((xs.take k).map (·.1)).map fun s : Shape =>
        if h : s.rank = (⟨2, ![R, C]⟩ : Shape).rank then s.size ((0 : Fin 2).cast h.symm) else 0).sum = pre)
    (hlo : pre ≤ p.val) (hhi : p.val < pre + r) :
    concatenate (⟨2, ![R, C]⟩ : Shape) 0 xs h (ix2 p q) = x₁ (ix2 (⟨p.val - pre, by omega⟩ : Fin r) q) := by
  refine concatenate_apply_piece (0 : Fin 2) xs h (ix2 p q) k hk _ x₁ hxk rfl pre hpre _ ?_ ?_
  · intro b hb
    match b with
    | ⟨0, _⟩ => exact absurd rfl hb
    | ⟨1, _⟩ => rfl
  · show pre + (p.val - pre) = p.val
    omega

end Cert.SlabLoad

end
-- ==== Proof.KernelPack.lean ====
/-
  The packed weights the kernel's body assembles from its loads, by concatenating the three relations' slabs and blocks
  of zeros, are the packed weights of the specification: entry by entry, the piece of the concatenation that holds the
  entry is the slab of the relation the specification reads, or a block of zeros where the specification is zero.
-/
import proofs.«150386_g2000204067356750_pallasbulk_973_23_alg».proof.Proof.KernelTerms
import proofs.«150386_g2000204067356750_pallasbulk_973_23_alg».proof.Proof.Gen.KernelIdeal.Frame
import proofs.«150386_g2000204067356750_pallasbulk_973_23_alg».proof.Proof.LibSlabLoad

noncomputable section

namespace Cert.KernelIdeal.Pack

open Idealize.ShloMosaic Idealize.ShloMosaic.ValueIdx
open Cert.KernelIdeal Cert.KernelIdeal.Gen Cert.KernelIdeal.Hand
open Cert.SlabLoad

/-- An array read at two rank-3 indices with the same coordinates reads the same entry. -/
theorem at_ix3_congr {α : Type} {n0 n1 n2 : Nat} (x : (⟨3, ![n0, n1, n2]⟩ : Shape).Idx → α) {a a' : Fin n0} {b b' : Fin n1}
    {c c' : Fin n2} (ha : a.val = a'.val) (hb : b.val = b'.val) (hc : c.val = c'.val) : x (ix3 a b c) = x (ix3 a' b' c') := by
  obtain rfl := Fin.ext ha
  obtain rfl := Fin.ext hb
  obtain rfl := Fin.ext hc
  rfl

/-- The zero word of the 32-bit format is the extended real zero. -/
theorem zero_f32 : (Scalar.ofBits (F := Ideal) .f32 0x00000000#32 : Ideal .f32) = 0 := Ideal.ofBits_zero_f32

/-! ## The specification's entries, by the side of its condition -/

theorem pW1_pos (w : Cert.Spec.ShW1.Idx → EReal) (d : Fin 512) (q : Fin 128) (h : q.val < 96) :
    Cert.Spec.packW1At w d q = w (ix3 (⟨q.val / 32, by omega⟩ : Fin 3) d (⟨q.val % 32, by omega⟩ : Fin 32)) := dif_pos h
theorem pW1_neg (w : Cert.Spec.ShW1.Idx → EReal) (d : Fin 512) (q : Fin 128) (h : ¬q.val < 96) :
    Cert.Spec.packW1At w d q = 0 := dif_neg h
theorem pB1_pos (b : Cert.Spec.ShB1.Idx → EReal) (q : Fin 128) (h : q.val < 96) :
    Cert.Spec.packB1At b q = b (ix3 (⟨q.val / 32, by omega⟩ : Fin 3) (0 : Fin 1) (⟨q.val % 32, by omega⟩ : Fin 32)) := dif_pos h
theorem pB1_neg (b : Cert.Spec.ShB1.Idx → EReal) (q : Fin 128) (h : ¬q.val < 96) : Cert.Spec.packB1At b q = 0 := dif_neg h
theorem pW2_pos (w : Cert.Spec.ShW2.Idx → EReal) (k q : Fin 128) (h : k.val < 96 ∧ q.val < 48 ∧ k.val / 32 = q.val / 16) :
    Cert.Spec.packW2At w k q
      = w (ix3 (⟨k.val / 32, by omega⟩ : Fin 3) (⟨k.val % 32, by omega⟩ : Fin 32) (⟨q.val % 16, by omega⟩ : Fin 16)) := dif_pos h
theorem pW2_neg (w : Cert.Spec.ShW2.Idx → EReal) (k q : Fin 128) (h : ¬(k.val < 96 ∧ q.val < 48 ∧ k.val / 32 = q.val / 16)) :
    Cert.Spec.packW2At w k q = 0 := dif_neg h
theorem pB2_pos (b : Cert.Spec.ShB2.Idx → EReal) (q : Fin 128) (h : q.val < 48) :
    Cert.Spec.packB2At b q = b (ix3 (⟨q.val / 16, by omega⟩ : Fin 3) (0 : Fin 1) (⟨q.val % 16, by omega⟩ : Fin 16)) := dif_pos h
theorem pB2_neg (b : Cert.Spec.ShB2.Idx → EReal) (q : Fin 128) (h : ¬q.val < 48) : Cert.Spec.packB2At b q = 0 := dif_neg h

/-! ## The four arrays -/

/-- The first layer's packed weights. -/
theorem kernel_W1 (x1 : Vec Ideal S3x512x32 .f32) :
    k0_pay2 (View.ld x1 r0_0) (View.ld x1 r0_1) (View.ld x1 r0_2) = Cert.Spec.packW1 x1 := by
  funext j
  obtain ⟨p, q, rfl⟩ : ∃ (p : Fin 512) (q : Fin 128), j = ix2 p q := ⟨j 0, j 1, eq_ix2 j⟩
  show _ = Cert.Spec.packW1At x1 p q
  have hq := q.isLt
  by_cases h0 : q.val < 32
  · refine (concat_cols _ (by exact concatenates_S512x32_S512x32_S512x32_S512x32_S512x128_d1) p q 0 (by show (0 : Nat) < 4; omega) 32 _ rfl 0 rfl (Nat.zero_le _) (by omega)).trans ?_
    refine (slab_apply x1 0 (by decide) _ _ p _).trans ?_
    rw [pW1_pos _ _ _ (by omega)]
    exact at_ix3_congr x1 (by show 0 = q.val / 32; omega) rfl (by show q.val - 0 = q.val % 32; omega)
  by_cases h1 : q.val < 64
  · refine (concat_cols _ (by exact concatenates_S512x32_S512x32_S512x32_S512x32_S512x128_d1) p q 1 (by show (1 : Nat) < 4; omega) 32 _ rfl 32 rfl (by omega) (by omega)).trans ?_
    refine (slab_apply x1 1 (by decide) _ _ p _).trans ?_
    rw [pW1_pos _ _ _ (by omega)]
    exact at_ix3_congr x1 (by show 1 = q.val / 32; omega) rfl (by show q.val - 32 = q.val % 32; omega)
  by_cases h2 : q.val < 96
  · refine (concat_cols _ (by exact concatenates_S512x32_S512x32_S512x32_S512x32_S512x128_d1) p q 2 (by show (2 : Nat) < 4; omega) 32 _ rfl 64 rfl (by omega) (by omega)).trans ?_
    refine (slab_apply x1 2 (by decide) _ _ p _).trans ?_
    rw [pW1_pos _ _ _ (by omega)]
    exact at_ix3_congr x1 (by show 2 = q.val / 32; omega) rfl (by show q.val - 64 = q.val % 32; omega)
  · refine (concat_cols _ (by exact concatenates_S512x32_S512x32_S512x32_S512x32_S512x128_d1) p q 3 (by show (3 : Nat) < 4; omega) 32 _ rfl 96 rfl (by omega) (by omega)).trans ?_
    rw [pW1_neg _ _ _ h2]
    exact zero_f32

/-- The first layer's packed bias. -/
theorem kernel_B1 (x2 : Vec Ideal S3x1x32 .f32) :
    k0_pay3 (View.ld x2 r0_3) (View.ld x2 r0_4) (View.ld x2 r0_5) = Cert.Spec.packB1 x2 := by
  funext j
  obtain ⟨p, q, rfl⟩ : ∃ (p : Fin 1) (q : Fin 128), j = ix2 p q := ⟨j 0, j 1, eq_ix2 j⟩
  show _ = Cert.Spec.packB1At x2 q
  have hq := q.isLt
  have hp := p.isLt
  by_cases h0 : q.val < 32
  · refine (concat_cols _ (by exact concatenates_S1x32_S1x32_S1x32_S1x32_S1x128_d1) p q 0 (by show (0 : Nat) < 4; omega) 32 _ rfl 0 rfl (Nat.zero_le _) (by omega)).trans ?_
    refine (slab_apply x2 0 (by decide) _ _ p _).trans ?_
    rw [pB1_pos _ _ (by omega)]
    exact at_ix3_congr x2 (by show 0 = q.val / 32; omega) (by show p.val = 0; omega) (by show q.val - 0 = q.val % 32; omega)
  by_cases h1 : q.val < 64
  · refine (concat_cols _ (by exact concatenates_S1x32_S1x32_S1x32_S1x32_S1x128_d1) p q 1 (by show (1 : Nat) < 4; omega) 32 _ rfl 32 rfl (by omega) (by omega)).trans ?_
    refine (slab_apply x2 1 (by decide) _ _ p _).trans ?_
    rw [pB1_pos _ _ (by omega)]
    exact at_ix3_congr x2 (by show 1 = q.val / 32; omega) (by show p.val = 0; omega) (by show q.val - 32 = q.val % 32; omega)
  by_cases h2 : q.val < 96
  · refine (concat_cols _ (by exact concatenates_S1x32_S1x32_S1x32_S1x32_S1x128_d1) p q 2 (by show (2 : Nat) < 4; omega) 32 _ rfl 64 rfl (by omega) (by omega)).trans ?_
    refine (slab_apply x2 2 (by decide) _ _ p _).trans ?_
    rw [pB1_pos _ _ (by omega)]
    exact at_ix3_congr x2 (by show 2 = q.val / 32; omega) (by show p.val = 0; omega) (by show q.val - 64 = q.val % 32; omega)
  · refine (concat_cols _ (by exact concatenates_S1x32_S1x32_S1x32_S1x32_S1x128_d1) p q 3 (by show (3 : Nat) < 4; omega) 32 _ rfl 96 rfl (by omega) (by omega)).trans ?_
    rw [pB1_neg _ _ h2]
    exact zero_f32

/-- The second layer's packed bias. -/
theorem kernel_B2 (x4 : Vec Ideal S3x1x16 .f32) :
    kB2 (View.ld x4 r0_9) (View.ld x4 r0_10) (View.ld x4 r0_11) = Cert.Spec.packB2 x4 := by
  funext j
  obtain ⟨p, q, rfl⟩ : ∃ (p : Fin 1) (q : Fin 128), j = ix2 p q := ⟨j 0, j 1, eq_ix2 j⟩
  show _ = Cert.Spec.packB2At x4 q
  have hq := q.isLt
  have hp := p.isLt
  by_cases h0 : q.val < 16
  · refine (concat_cols _ (by exact concatenates_S1x16_S1x16_S1x16_S1x80_S1x128_d1) p q 0 (by show (0 : Nat) < 4; omega) 16 _ rfl 0 rfl (Nat.zero_le _) (by omega)).trans ?_
    refine (slab_apply x4 0 (by decide) _ _ p _).trans ?_
    rw [pB2_pos _ _ (by omega)]
    exact at_ix3_congr x4 (by show 0 = q.val / 16; omega) (by show p.val = 0; omega) (by show q.val - 0 = q.val % 16; omega)
  by_cases h1 : q.val < 32
  · refine (concat_cols _ (by exact concatenates_S1x16_S1x16_S1x16_S1x80_S1x128_d1) p q 1 (by show (1 : Nat) < 4; omega) 16 _ rfl 16 rfl (by omega) (by omega)).trans ?_
    refine (slab_apply x4 1 (by decide) _ _ p _).trans ?_
    rw [pB2_pos _ _ (by omega)]
    exact at_ix3_congr x4 (by show 1 = q.val / 16; omega) (by show p.val = 0; omega) (by show q.val - 16 = q.val % 16; omega)
  by_cases h2 : q.val < 48
  · refine (concat_cols _ (by exact concatenates_S1x16_S1x16_S1x16_S1x80_S1x128_d1) p q 2 (by show (2 : Nat) < 4; omega) 16 _ rfl 32 rfl (by omega) (by omega)).trans ?_
    refine (slab_apply x4 2 (by decide) _ _ p _).trans ?_
    rw [pB2_pos _ _ (by omega)]
    exact at_ix3_congr x4 (by show 2 = q.val / 16; omega) (by show p.val = 0; omega) (by show q.val - 32 = q.val % 16; omega)
  · refine (concat_cols _ (by exact concatenates_S1x16_S1x16_S1x16_S1x80_S1x128_d1) p q 3 (by show (3 : Nat) < 4; omega) 80 _ rfl 48 rfl (by omega) (by omega)).trans ?_
    rw [pB2_neg _ _ h2]
    exact zero_f32

/-- The second layer's block-diagonal packed weights. -/
theorem kernel_W2 (x3 : Vec Ideal S3x32x16 .f32) :
    kW2 (k0_pay4 (View.ld x3 r0_6)) (k0_pay5 (View.ld x3 r0_7)) (k0_pay6 (F := Ideal)) (View.ld x3 r0_8)
      = Cert.Spec.packW2 x3 := by
  funext j
  obtain ⟨p, q, rfl⟩ : ∃ (p : Fin 128) (q : Fin 128), j = ix2 p q := ⟨j 0, j 1, eq_ix2 j⟩
  show _ = Cert.Spec.packW2At x3 p q
  have hq := q.isLt
  have hp := p.isLt
  by_cases hp0 : p.val < 32
  · -- rows 0 .. 31: relation 0 in columns 0 .. 15, zeros beyond
    refine (concat_rows _ (by exact concatenates_S32x128_S32x128_S32x128_S32x128_S128x128_d0) p q 0 (by show (0 : Nat) < 4; omega) 32 _ rfl 0 rfl (Nat.zero_le _) (by omega)).trans ?_
    by_cases h0 : q.val < 16
    · refine (concat_cols _ (by exact concatenates_S32x16_S32x112_S32x128_d1) _ q 0 (by show (0 : Nat) < 2; omega) 16 _ rfl 0 rfl (Nat.zero_le _) (by omega)).trans ?_
      refine (slab_apply x3 0 (by decide) _ _ _ _).trans ?_
      rw [pW2_pos _ _ _ ⟨by omega, by omega, by omega⟩]
      exact at_ix3_congr x3 (by show 0 = p.val / 32; omega) (by show p.val - 0 = p.val % 32; omega)
        (by show q.val - 0 = q.val % 16; omega)
    · refine (concat_cols _ (by exact concatenates_S32x16_S32x112_S32x128_d1) _ q 1 (by show (1 : Nat) < 2; omega) 112 _ rfl 16 rfl (by omega) (by omega)).trans ?_
      rw [pW2_neg _ _ _ (by omega)]
      exact zero_f32
  by_cases hp1 : p.val < 64
  · -- rows 32 .. 63: relation 1 in columns 16 .. 31
    refine (concat_rows _ (by exact concatenates_S32x128_S32x128_S32x128_S32x128_S128x128_d0) p q 1 (by show (1 : Nat) < 4; omega) 32 _ rfl 32 rfl (by omega) (by omega)).trans ?_
    by_cases h0 : q.val < 16
    · refine (concat_cols _ (by exact concatenates_S32x16_S32x16_S32x96_S32x128_d1) _ q 0 (by show (0 : Nat) < 3; omega) 16 _ rfl 0 rfl (Nat.zero_le _) (by omega)).trans ?_
      rw [pW2_neg _ _ _ (by omega)]
      exact zero_f32
    by_cases h1 : q.val < 32
    · refine (concat_cols _ (by exact concatenates_S32x16_S32x16_S32x96_S32x128_d1) _ q 1 (by show (1 : Nat) < 3; omega) 16 _ rfl 16 rfl (by omega) (by omega)).trans ?_
      refine (slab_apply x3 1 (by decide) _ _ _ _).trans ?_
      rw [pW2_pos _ _ _ ⟨by omega, by omega, by omega⟩]
      exact at_ix3_congr x3 (by show 1 = p.val / 32; omega) (by show p.val - 32 = p.val % 32; omega)
        (by show q.val - 16 = q.val % 16; omega)
    · refine (concat_cols _ (by exact concatenates_S32x16_S32x16_S32x96_S32x128_d1) _ q 2 (by show (2 : Nat) < 3; omega) 96 _ rfl 32 rfl (by omega) (by omega)).trans ?_
      rw [pW2_neg _ _ _ (by omega)]
      exact zero_f32
  by_cases hp2 : p.val < 96
  · -- rows 64 .. 95: relation 2 in columns 32 .. 47
    refine (concat_rows _ (by exact concatenates_S32x128_S32x128_S32x128_S32x128_S128x128_d0) p q 2 (by show (2 : Nat) < 4; omega) 32 _ rfl 64 rfl (by omega) (by omega)).trans ?_
    by_cases h0 : q.val < 32
    · refine (concat_cols _ (by exact concatenates_S32x32_S32x16_S32x80_S32x128_d1) _ q 0 (by show (0 : Nat) < 3; omega) 32 _ rfl 0 rfl (Nat.zero_le _) (by omega)).trans ?_
      rw [pW2_neg _ _ _ (by omega)]
      exact zero_f32
    by_cases h1 : q.val < 48
    · refine (concat_cols _ (by exact concatenates_S32x32_S32x16_S32x80_S32x128_d1) _ q 1 (by show (1 : Nat) < 3; omega) 16 _ rfl 32 rfl (by omega) (by omega)).trans ?_
      refine (slab_apply x3 2 (by decide) _ _ _ _).trans ?_
      rw [pW2_pos _ _ _ ⟨by omega, by omega, by omega⟩]
      exact at_ix3_congr x3 (by show 2 = p.val / 32; omega) (by show p.val - 64 = p.val % 32; omega)
        (by show q.val - 32 = q.val % 16; omega)
    · refine (concat_cols _ (by exact concatenates_S32x32_S32x16_S32x80_S32x128_d1) _ q 2 (by show (2 : Nat) < 3; omega) 80 _ rfl 48 rfl (by omega) (by omega)).trans ?_
      rw [pW2_neg _ _ _ (by omega)]
      exact zero_f32
  · -- rows 96 .. 127: zeros
    refine (concat_rows _ (by exact concatenates_S32x128_S32x128_S32x128_S32x128_S128x128_d0) p q 3 (by show (3 : Nat) < 4; omega) 32 _ rfl 96 rfl (by omega) (by omega)).trans ?_
    rw [pW2_neg _ _ _ (by omega)]
    exact zero_f32

end Cert.KernelIdeal.Pack

end
-- ==== Proof.KernelValue.lean ====
/-
  The kernel program's result as the specification's function of the argument arrays.

  After the first call the array T holds the row formula with the packed weights the body assembles, and those are
  the specification's packed weights; the second call finds that T and leaves its Gram matrix in the result array.
-/
import proofs.«150386_g2000204067356750_pallasbulk_973_23_alg».proof.Proof.KernelMlp
import proofs.«150386_g2000204067356750_pallasbulk_973_23_alg».proof.Proof.KernelGram
import proofs.«150386_g2000204067356750_pallasbulk_973_23_alg».proof.Proof.KernelPack

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-- With the packed weights the body assembles read as the specification's, T is the specification's T. -/
theorem Tk_eq (V : (c : Dev nD) → (b : Ref sig .tc) → Buf (Elt Ideal) ((c : Thread nD τ).loc b)) (c : Dev nD) :
    Tk V c = Cert.Spec.T (V c main_arg0) (V c main_arg1) (V c main_arg2) (V c main_arg3) (V c main_arg4) := by
  funext j
  show TkAt V c (j 0) (j 1) = _
  unfold TkAt kPW1 kPB1 kPW2 kPB2
  rw [Cert.KernelIdeal.Pack.kernel_W1, Cert.KernelIdeal.Pack.kernel_B1, Cert.KernelIdeal.Pack.kernel_W2, Cert.KernelIdeal.Pack.kernel_B2]
  rfl

variable (m : (ℓ : Loc nD τ sig) → Buf (Elt Ideal) ℓ) (ρ : Dev nD → PrngReg)

/-- The array T as the second call finds it. -/
theorem V1_T (c : Dev nD) : (V1 m ρ c main_v0 : S8192x128.Idx → EReal) = Tk (V0 m ρ) c :=
  (W1_arr m ρ c 5).trans (final_T (V0 m ρ) c)

/-- The result array after the run. -/
theorem value (c : Dev nD) :
    (dat1 (V1 m ρ) c).arrAt 1 cfg1.N
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [final_G, Cert.Spec.G_eq]
  unfold Gk
  rw [V1_T, Tk_eq]

end Cert.KernelIdeal.Hand

end
-- ==== Proof.RefBody.lean ====
/-
  The two kernels of the reference program, each taken by itself at any contents of the core's buffers when its
  call is entered.

  The first call runs the packed perceptron on one block of 512 rows of the node features per grid point: it reads the
  block, the packed first-layer weights and bias and the packed second-layer weights and bias, and stores the 512 x 128
  block of T that those determine. The second call visits the 16 x 16 pairs (i, j) of row blocks of T: it reads block i
  and block j of the SAME array T and stores their product, block i against the transpose of block j, as the
  512 x 512 tile (i, j) of the result. Each body loads whole buffers and stores one whole buffer, so what it leaves in
  the output buffer is one function of what the input buffers held. The shares at which the second call holds its two
  readings of T are left as a parameter here.
-/
import proofs.«150386_g2000204067356750_pallasbulk_973_23_alg».proof.Proof.Gen.ReferenceIdeal.Launch
import proofs.«150386_g2000204067356750_pallasbulk_973_23_alg».proof.Proof.Gen.ReferenceIdeal.Skeleton
import proofs.«150386_g2000204067356750_pallasbulk_973_23_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.ReferenceIdeal.Facts₀ Cert.ReferenceIdeal.Facts

variable {F : FTy → Type} [FloatOps F]

local notation "𝕄" => MT nD τ sig Unit (Elt F) ℕ (UR sig nD τ) ℕ

section Regions
-- the core's buffer contents when a call is entered
variable (V : (c : Dev nD) → (b : Ref sig .tc) → Buf (Elt F) ((c : Thread nD τ).loc b))

/-! # The first call: the packed perceptron on blocks of 512 rows -/

/-- Window w's block at grid point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes. -/
abbrev rZ : Rect S512x512 := Rect.unit (s := S512x512) ![0, 0] S512x512.size Facts₀.inb_S512x512_S512x512_0_0
abbrev rT : Rect S512x128 := Rect.unit (s := S512x128) ![0, 0] S512x128.size Facts₀.inb_S512x128_S512x128_0_0
abbrev rRow : Rect S1x128 := Rect.unit (s := S1x128) ![0, 0] S1x128.size Facts₀.inb_S1x128_S1x128_0_0
abbrev rSq : Rect S128x128 := Rect.unit (s := S128x128) ![0, 0] S128x128.size Facts₀.inb_S128x128_S128x128_0_0

/-- The output buffer after the body, from the input buffers' contents: the one store of the perceptron's block. -/
def out0_5 (x0 : Vec F S512x512 .f32) (x1 : Vec F S512x128 .f32) (x2 : Vec F S1x128 .f32) (x3 : Vec F S128x128 .f32) (x4 : Vec F S1x128 .f32) : Vec F S512x128 .f32 :=
  View.canon [⟨rT, k0_pay1 (View.ld x0 rZ) (View.ld x1 rT) (View.ld x2 rRow) (View.ld x3 rSq) (View.ld x4 rRow)⟩]

/-- The store covers the whole output buffer. -/
theorem cover0_5 (p0 : Vec F S512x128 .f32) (y : S512x128.Idx) :
    ∃ pc ∈ ([⟨rT, p0⟩] : List (View.Piece (Elt F) S512x128 .f32)), y ∈ pc.1.set :=
  View.cover_of_tiled [⟨rT, p0⟩] S512x128.size (by rfl) y

set_option maxHeartbeats 1000000 in
/-- The body on whole buffers: the inputs stay, the output buffer ends at out0_5 of the inputs. -/
theorem sound_kernel0 (c : Dev nD) (E : Set ℕ) (i : grid0.Coords) (arg1 : Memref sig .tc .vmem S512x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole)
    (x0 : Vec F S512x512 .f32) (x1 : Vec F S512x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0_mlp_kernel i arg1 harg1 arg2 harg2 arg3 harg3 arg4 harg4 arg5 harg5 arg6 harg6) K := by
  simp only [cc0_mlp_kernel_eq_skeleton]; unfold cc0_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

/-- The first call's data on core c: the arrays as the call finds them; after the body at point t each input
    buffer at its block and the output buffer at out0_5 of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

/-! # The second call: tile (i, j) of the Gram matrix from row blocks i and j of T -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rO : Rect S512x512 := Rect.unit (s := S512x512) ![0, 0] S512x512.size Facts₀.inb_S512x512_S512x512_0_0

/-- The output buffer after the body: the one store of the product of the two blocks. -/
def out1_2 (x0 : Vec F S512x128 .f32) (x1 : Vec F S512x128 .f32) : Vec F S512x512 .f32 :=
  View.canon [⟨rO, k1_pay1 (View.ld x0 rT) (View.ld x1 rT)⟩]

theorem cover1_2 (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

set_option maxHeartbeats 1000000 in
theorem sound_kernel1 (c : Dev nD) (E : Set ℕ) (i : grid1.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole)
    (x0 : Vec F S512x128 .f32) (x1 : Vec F S512x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_gram_kernel i arg2 harg2 arg3 harg3 arg4 harg4) K := by
  simp only [cc1_gram_kernel_eq_skeleton]; unfold cc1_gram_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-- The second call's data on core c, at the shares qs of its two readings of T. -/
def dat1 (qs : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := qs
  owed _ := 0

theorem A_eq1 (qs : Fin cfg1.W → PosShare TreeShare) (c : Dev nD) (w : Fin cfg1.W) : (dat1 V qs c).A w = V c (Pipeline.arrRef spec1 w) := by
  dsimp only [dat1]

theorem after1_0 (qs : Fin cfg1.W → PosShare TreeShare) (c : Dev nD) (t : Fin cfg1.N) : (dat1 V qs c).after 0 t = iblk1 V c 0 t := by dsimp only [dat1]
theorem after1_1 (qs : Fin cfg1.W → PosShare TreeShare) (c : Dev nD) (t : Fin cfg1.N) : (dat1 V qs c).after 1 t = iblk1 V c 1 t := by dsimp only [dat1]
theorem after1_2 (qs : Fin cfg1.W → PosShare TreeShare) (c : Dev nD) (t : Fin cfg1.N) : (dat1 V qs c).after 2 t = out1_2 (iblk1 V c 0 t) (iblk1 V c 1 t) := by dsimp only [dat1]

theorem before1_0 (qs : Fin cfg1.W → PosShare TreeShare) (c : Dev nD) (t : Fin cfg1.N) (d) : (dat1 V qs c).before 0 t d = iblk1 V c 0 t :=
  before1_0_of V (dat1 V qs c) (A_eq1 V qs c 0) (after1_0 V qs c) t d
theorem before1_1 (qs : Fin cfg1.W → PosShare TreeShare) (c : Dev nD) (t : Fin cfg1.N) (d) : (dat1 V qs c).before 1 t d = iblk1 V c 1 t :=
  before1_1_of V (dat1 V qs c) (A_eq1 V qs c 1) (after1_1 V qs c) t d

def bodyPre1 (qs : Fin cfg1.W → PosShare TreeShare) (c : Dev nD) (t : Fin cfg1.N) : sProp 𝕄 :=
  iprop((dat1 V qs c).Φ t.castSucc ∗ (dat1 V qs c).owesAt () t.castSucc
    ∗ (∃ d, owns (c : Thread nD τ) (st1_0 t) fullShare ((dat1 V qs c).before 0 t d))
    ∗ (∃ d, owns (c : Thread nD τ) (st1_1 t) fullShare ((dat1 V qs c).before 1 t d))
    ∗ (∃ d, owns (c : Thread nD τ) (st1_2 t) fullShare ((dat1 V qs c).before 2 t d)))

def bodyPost1 (qs : Fin cfg1.W → PosShare TreeShare) (c : Dev nD) (t : Fin cfg1.N) : sProp 𝕄 :=
  iprop((dat1 V qs c).Φ t.succ ∗ (dat1 V qs c).owesAt () t.succ
    ∗ owns (c : Thread nD τ) (st1_0 t) fullShare ((dat1 V qs c).after 0 t)
    ∗ owns (c : Thread nD τ) (st1_1 t) fullShare ((dat1 V qs c).after 1 t)
    ∗ owns (c : Thread nD τ) (st1_2 t) fullShare ((dat1 V qs c).after 2 t))

theorem sound_body1 (qs : Fin cfg1.W → PosShare TreeShare) (c : Dev nD) (t : Fin cfg1.N) :
    bodyPre1 V qs c t ⊢ wp frame (wpE (defs₀ (F := F)) Variants.none c none) Set.univ (bodyAt1 t) (fun _ => bodyPost1 V qs c t) := by
  unfold bodyPre1 bodyPost1 bodyAt1
  simp only [before1_0, before1_1]
  rw [show (dat1 V qs c).Φ t.succ = (dat1 V qs c).Φ t.castSucc from rfl,
    show (dat1 V qs c).owesAt () t.succ = (dat1 V qs c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (qs : Fin cfg1.W → PosShare TreeShare) (c : Dev nD) : BodyObligation (dat1 (F := F) V qs c) (defs₀ (F := F)) Variants.none () Set.univ := fun t => by
  rw [bigSep_W1, bigSep_W1]
  exact sound_body1 V qs c t

end Regions

end Cert.ReferenceIdeal.Hand

end
-- ==== Proof.RefRunA.lean ====
/-
  The run of the reference program, first part: what the core's buffers hold at each boundary of the program
  (at launch, after the sixty and then the seventeen host operations that pack the weights, after the first call,
  after the second), that no step writes an argument array, the shares at which the second call holds its two
  readings of T (the two halves of the full share), and the two host stretches and the first call as segments
  of the run.
-/
import proofs.«150386_g2000204067356750_pallasbulk_973_23_alg».proof.Proof.RefBody

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.ReferenceIdeal.Facts₀ Cert.ReferenceIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary -/

/-- Core c's buffers at launch. -/
abbrev W0 : Dev nD → Valuation τ sig (Elt F) := fun c b => (s₀ m ρ).mem ((c : Dev nD), b)
/-- After the first sixty host operations. -/
def Wa (c : Dev nD) : Valuation τ sig (Elt F) := StableHlo.after main_part0_ops0 (W0 m ρ c)
/-- After all seventy-seven host operations: what the first call is entered from. -/
def Wb (c : Dev nD) : Valuation τ sig (Elt F) := StableHlo.after main_part1_ops0 (Wa m ρ c)
theorem Wb_eq (c : Dev nD) : Wb m ρ c = StableHlo.after main_part1_ops0 (StableHlo.after main_part0_ops0 (W0 m ρ c)) := rfl
/-- The same read at the core's references. -/
abbrev Vb : (c : Dev nD) → (b : Ref sig .tc) → Buf (Elt F) ((c : Thread nD τ).loc b) := fun c b => Wb m ρ c b

/-- After the first call: its arrays at what the call leaves, every other buffer as entered. -/
def W1 (c : Dev nD) : Valuation τ sig (Elt F) :=
  Pipeline.withArrays spec0 c (Wb m ρ c) fun w => (dat0 (Vb m ρ) c).arrAt w cfg0.N
theorem W1_arr (c : Dev nD) (w : Fin cfg0.W) :
    W1 m ρ c (Proc.devRef .tc (Pipeline.arrRef spec0 w)) = (dat0 (Vb m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = Wb m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (Vb m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = Vb m ρ c b :=
  fun b hb => W1_of_ne m ρ c b fun w e => hb (Finset.mem_image.mpr ⟨w, Finset.mem_univ _, e⟩)
/-- T, the first call's result, is what the second call reads. -/
theorem V1_T (c : Dev nD) : V1 m ρ c main_v58 = (dat0 (Vb m ρ) c).arrAt 5 cfg0.N := W1_arr m ρ c 5

/-- The shares of the second call's windows: its two readings of T hold the two halves of the full share. -/
def qs : Fin cfg1.W → PosShare TreeShare
  | ⟨0, _⟩ => fullShare.left
  | ⟨1, _⟩ => fullShare.right
  | ⟨2, _⟩ => fullShare

/-- After the second call: the result array at what the call leaves, every other buffer as entered. -/
def W2 (c : Dev nD) : Valuation τ sig (Elt F) :=
  Function.update (W1 m ρ c) (Proc.devRef .tc main_v59) ((dat1 (V1 m ρ) qs c).arrAt 2 cfg1.N)
theorem W2_out (c : Dev nD) : W2 m ρ c (Proc.devRef .tc main_v59) = (dat1 (V1 m ρ) qs c).arrAt 2 cfg1.N := by
  unfold W2; exact Function.update_self _ _ _
theorem W2_of_ne (c : Dev nD) (b : Ref sig .tc) (hb : b ≠ main_v59) :
    W2 m ρ c (Proc.devRef .tc b) = W1 m ρ c (Proc.devRef .tc b) := by
  unfold W2; exact Function.update_of_ne (fun e => hb (Proc.devRef_injective _ e)) _ _
abbrev V2 : (c : Dev nD) → (b : Ref sig .tc) → Buf (Elt F) ((c : Thread nD τ).loc b) := fun c b => W2 m ρ c b

/-! ### The arguments end as launched: no host operation and no call writes one -/

/-- The references the first sixty host operations write. -/
abbrev written0 : List (Ref sig .tc) :=
  [main_cst, main_v0, main_cst_0, main_v1, main_cst_1, main_v2, main_cst_2, main_v3, main_v4, main_v5, main_c, main_v6, main_v7,
   main_v8, main_v9, main_c_3, main_v10, main_v11, main_v12, main_v13, main_c_4, main_v14, main_c_5, main_v15, main_v16, main_v17,
   main_v18, main_v19, main_c_6, main_v20, main_v21, main_v22, main_v23, main_c_7, main_v24, main_v25, main_v26, main_v27, main_c_8,
   main_v28, main_v29, main_v30, main_v31, main_c_9, main_v32, main_c_10, main_v33, main_v34, main_v35, main_v36, main_v37, main_c_11,
   main_v38, main_v39, main_v40, main_v41, main_c_12, main_v42, main_v43, main_v44]
/-- The references the last seventeen host operations write. -/
abbrev written1 : List (Ref sig .tc) :=
  [main_v45, main_c_13, main_v46, main_v47, main_v48, main_v49, main_c_14, main_v50, main_c_15, main_v51, main_v52, main_v53,
   main_v54, main_v55, main_c_16, main_v56, main_v57]

theorem part0_writes : (main_part0_ops0 : List (HloOp τ sig (Elt F))).Forall fun op =>
    op.writes ⊆ (written0.map (Proc.devRef (τ := τ) .tc)).toFinset := by
  simp only [main_part0_ops0, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩
theorem part1_writes : (main_part1_ops0 : List (HloOp τ sig (Elt F))).Forall fun op =>
    op.writes ⊆ (written1.map (Proc.devRef (τ := τ) .tc)).toFinset := by
  simp only [main_part1_ops0, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A reference the first sixty operations do not write keeps its contents through them. -/
theorem part0_keeps (V : Valuation τ sig (Elt F)) (r : Ref sig .tc) (hr : r ∉ written0) :
    StableHlo.after main_part0_ops0 V (Proc.devRef .tc r) = V (Proc.devRef .tc r) :=
  StableHlo.after_of_writes_sub main_part0_ops0 V part0_writes hr
/-- A reference the last seventeen operations do not write keeps its contents through them. -/
theorem part1_keeps (V : Valuation τ sig (Elt F)) (r : Ref sig .tc) (hr : r ∉ written1) :
    StableHlo.after main_part1_ops0 V (Proc.devRef .tc r) = V (Proc.devRef .tc r) :=
  StableHlo.after_of_writes_sub main_part1_ops0 V part1_writes hr

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = Wb m ρ c (Proc.devRef .tc main_arg0) := (W1_arr m ρ c 0).trans (((dat0 (Vb m ρ) c).arrAt_in 0 rfl _).trans (A_eq0 (Vb m ρ) c 0))
    _ = Wa m ρ c (Proc.devRef .tc main_arg0) := part1_keeps (Wa m ρ c) main_arg0 (by decide)
    _ = W0 m ρ c (Proc.devRef .tc main_arg0) := part0_keeps (W0 m ρ c) main_arg0 (by decide)
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = Wb m ρ c (Proc.devRef .tc main_arg1) := W1_of_ne m ρ c main_arg1 (by decide)
    _ = Wa m ρ c (Proc.devRef .tc main_arg1) := part1_keeps (Wa m ρ c) main_arg1 (by decide)
    _ = W0 m ρ c (Proc.devRef .tc main_arg1) := part0_keeps (W0 m ρ c) main_arg1 (by decide)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = Wb m ρ c (Proc.devRef .tc main_arg2) := W1_of_ne m ρ c main_arg2 (by decide)
    _ = Wa m ρ c (Proc.devRef .tc main_arg2) := part1_keeps (Wa m ρ c) main_arg2 (by decide)
    _ = W0 m ρ c (Proc.devRef .tc main_arg2) := part0_keeps (W0 m ρ c) main_arg2 (by decide)
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = Wb m ρ c (Proc.devRef .tc main_arg3) := W1_of_ne m ρ c main_arg3 (by decide)
    _ = Wa m ρ c (Proc.devRef .tc main_arg3) := part1_keeps (Wa m ρ c) main_arg3 (by decide)
    _ = W0 m ρ c (Proc.devRef .tc main_arg3) := part0_keeps (W0 m ρ c) main_arg3 (by decide)
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = Wb m ρ c (Proc.devRef .tc main_arg4) := W1_of_ne m ρ c main_arg4 (by decide)
    _ = Wa m ρ c (Proc.devRef .tc main_arg4) := part1_keeps (Wa m ρ c) main_arg4 (by decide)
    _ = W0 m ρ c (Proc.devRef .tc main_arg4) := part0_keeps (W0 m ρ c) main_arg4 (by decide)
    _ = m ((c : Thread nD τ).loc main_arg4) := rfl

/-! # The proof data, the thread state, and the segments up to the first call -/

abbrev adm : (p : Fin 2) → (pcfgs (F := F) p).Adm := fun p => (cfgs p).toPCfg_adm
/-- Each call's proof data at the contents its call is entered from. -/
def pdats : (p : Fin 2) → (c : Dev nD) → Dat τ (Elt F) Unit ℕ (UR sig nD τ) ℕ (Pipeline.pin (pcfgs (F := F)) adm p) c
  | ⟨0, _⟩ => fun c => dat0 (Vb m ρ) c
  | ⟨1, _⟩ => fun c => dat1 (V1 m ρ) qs c
abbrev 𝒱₀ : Variants := Variants.none
abbrev L : GSem nD τ sig → Finset Unit := fun _ => ∅
abbrev lv : GSem nD τ sig → Unit → ℕ := fun _ _ => 0
/-- What rides beside the buffers through every segment: the generator register at some state, and that the core
    owes nothing. -/
abbrev R (c : Dev nD) : sProp 𝕄 := iprop((∃ r, prngReg c r) ∗ ∃ W, owes (c : Thread nD τ) (0 : CellTallies nD τ sig Unit) W)
/-- A line of host operations as a segment over every unscoped buffer, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem part0_fresh : (main_part0_ops0 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing: every unscoped buffer at the last boundary's contents, the generator
    register at some state. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- The first call over the thread state: entered from every unscoped buffer at Wb, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb m ρ) c).loose
  hwaits := Pipeline.hwaits_of_owed_zero _ _ _ _ L lv 0 fun _ _ => rfl
  pre c := iprop(StableHlo.held (c : Thread nD τ) (Pipeline.ucRefs τ sig) (Wb m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vb m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.ReferenceIdeal.Hand

end
-- ==== Proof.RefRun.lean ====
/-
  The run of the reference program, second part: the second call, whose two input windows read the one array T.
  The core holds T's buffer whole when the call is entered; it is handed to the call as two halves of the full
  share, one per window, and since an input window's array is never written both halves come back at the entry
  contents and join to the whole buffer again. With the two host stretches and the first call this makes the
  program four segments run in order, and the launch over them gives: the program terminates without fault, the
  result array ends at what the second call's write-backs leave, and the argument arrays end as launched.
-/
import proofs.«150386_g2000204067356750_pallasbulk_973_23_alg».proof.Proof.RefRunA

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.ReferenceIdeal.Facts₀ Cert.ReferenceIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The second call's two readings of T: one buffer, two halves of the full share -/

section Shared
variable (V : (c : Dev nD) → (b : Ref sig .tc) → Buf (Elt F) ((c : Thread nD τ).loc b))

theorem share1_0 (c : Dev nD) : (dat1 V qs c).share 0 = fullShare.left := rfl
theorem share1_1 (c : Dev nD) : (dat1 V qs c).share 1 = fullShare.right := rfl
theorem share1_2 (c : Dev nD) : (dat1 V qs c).share 2 = fullShare := rfl

/-- The second call's arrays, one by one: T's buffer at the left half and at the right half, the result's buffer whole. -/
theorem arrays1_eq (c : Dev nD) (Fw : (w : Fin cfg1.W) → Buf (Elt F) ((cfg1.win w).arr.view.loc (c.tc : Thread nD τ))) :
    (dat1 V qs c).arrays Fw
      = iprop(((((c : Thread nD τ).loc main_v58) ↦{fullShare.left} Fw 0) : sProp 𝕄) ∗ (((c : Thread nD τ).loc main_v58) ↦{fullShare.right} Fw 1)
          ∗ (((c : Thread nD τ).loc main_v59) ↦{fullShare} Fw 2)) := by
  unfold Dat.arrays
  rw [bigSep_W1, share1_0, share1_1, share1_2, (arr_whole1 0).set_eq_univ, (arr_whole1 2).set_eq_univ]

/-- The distinct buffers behind the second call's arrays are T's and the result's. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v58) ↦{fullShare} V' main_v58) ∗ (((c : Thread nD τ).loc main_v59) ↦{fullShare} V' main_v59)) := by
  unfold Pipeline.arrBufs
  exact bigSep_eq_bigSepL_of_eq [main_v58, main_v59] (by decide) (by decide) _

/-- The buffers behind the second call's arrays, whole at the full share, make its arrays at entry: T's buffer is
    split into the two halves of the full share, one per reading. -/
theorem arrays_of_arrBufs1 (c : Dev nD) :
    (Pipeline.arrBufs (Ix := Unit) (Name := ℕ) (U := UR sig nD τ) (Lvl := ℕ) spec1 c (V c) : sProp 𝕄)
      ⊢ (dat1 V qs c).arrays fun w => (dat1 V qs c).arrAt w 0 := by
  rw [arrays1_eq, arrBufs1_eq]
  iintro ⟨HT, HO⟩
  ihave HT' := (pointsTo_share (PosShare.mem_left_op_right fullShare)).1 $$ HT
  icases HT' with ⟨Hl, Hr⟩
  isplitl [Hl]; · iexact Hl
  isplitl [Hr]; · iexact Hr
  iexact HO

/-- At exit the two halves of T's buffer, both still at the entry contents, join to the full share. -/
theorem arrBufs_of_arrays1 (c : Dev nD) (V' : (b : Ref sig .tc) → Buf (Elt F) ((c : Thread nD τ).loc b))
    (hT : V' main_v58 = V c main_v58) (hO : V' main_v59 = (dat1 V qs c).arrAt 2 cfg1.N) :
    (dat1 V qs c).arrays (fun w => (dat1 V qs c).arrAt w cfg1.N)
      ⊢ (Pipeline.arrBufs (Ix := Unit) (Name := ℕ) (U := UR sig nD τ) (Lvl := ℕ) spec1 c V' : sProp 𝕄) := by
  rw [arrays1_eq, arrBufs1_eq]
  rw [(dat1 V qs c).arrAt_in 0 rfl cfg1.N, (dat1 V qs c).arrAt_in 1 rfl cfg1.N]
  iintro ⟨Hl, Hr, HO⟩
  isplitl [Hl Hr]
  · rw [hT]
    iapply (pointsTo_share (PosShare.mem_left_op_right fullShare)).2
    isplitl [Hl]; · iexact Hl
    iexact Hr
  rw [hO]; iexact HO

end Shared

/-! # The second call as a segment, the run of the segments, and the result -/

theorem hrest1 (c : Dev nD) : ∀ b, b ∉ Finset.univ.image (Pipeline.arrRef spec1) → V2 m ρ c b = V1 m ρ c b :=
  fun b hb => W2_of_ne m ρ c b fun e =>
    hb (Finset.mem_image.mpr ⟨2, Finset.mem_univ _, (e.symm : Pipeline.arrRef spec1 2 = b)⟩)

/-- Every unscoped buffer at W1 is the second call's arrays at entry and the rest. -/
theorem hsplit1 (c : Dev nD) :
    (StableHlo.held (c : Thread nD τ) (Pipeline.ucRefs τ sig) (W1 m ρ c) : sProp 𝕄)
      ⊢ iprop((dat1 (V1 m ρ) qs c).arrays (fun w => (dat1 (V1 m ρ) qs c).arrAt w 0)
          ∗ Pipeline.unscopedRest (Ix := Unit) (Name := ℕ) (U := UR sig nD τ) (Lvl := ℕ) spec1 c (V1 m ρ c)) := by
  rw [← Pipeline.unscopedBufs_held, Pipeline.unscopedBufs_split₀ cfgs 1 winFacts₀1.arr_unscoped c (V1 m ρ c)]
  exact sep_mono (arrays_of_arrBufs1 (V1 m ρ) c) .rfl

/-- The second call's arrays at exit and the rest are every unscoped buffer at W2. -/
theorem hjoin1 (c : Dev nD) :
    iprop((dat1 (V1 m ρ) qs c).arrays (fun w => (dat1 (V1 m ρ) qs c).arrAt w cfg1.N)
        ∗ Pipeline.unscopedRest (Ix := Unit) (Name := ℕ) (U := UR sig nD τ) (Lvl := ℕ) spec1 c (V1 m ρ c))
      ⊢ (StableHlo.held (c : Thread nD τ) (Pipeline.ucRefs τ sig) (W2 m ρ c) : sProp 𝕄) := by
  rw [← Pipeline.unscopedBufs_held, Pipeline.unscopedBufs_split₀ cfgs 1 winFacts₀1.arr_unscoped c (V2 m ρ c)]
  refine sep_mono (arrBufs_of_arrays1 (V1 m ρ) c (V2 m ρ c) (W2_of_ne m ρ c main_v58 (by decide)) (W2_out m ρ c)) (Entails.of_eq ?_)
  unfold Pipeline.unscopedRest
  exact bigSep_congr fun b hb => by rw [hrest1 m ρ c b (Finset.mem_sdiff.mp hb).2]

set_option backward.isDefEq.respectTransparency.types false in
/-- The second call over the thread state: entered from every unscoped buffer at W1, left at W2. T's buffer goes
    in as two halves, one per reading, and comes back whole. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) qs c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := hsplit1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := hjoin1 m ρ c
    iintro ⟨Ha, HO, HY, Hrest⟩
    imodintro
    isplitl [Ha Hrest HY]
    · isplitl [Ha Hrest]
      · iapply hjoin; isplitl [Ha]
        · iexact Ha
        iexact Hrest
      iexact HY
    unfold Pipeline.Dat.owesAt Pipeline.owesWithin
    icases HO with ⟨%W, -, HO⟩; iexists W; iexact HO

/-! ## The program as segments, and the launch -/

/-- The program's four segments in order: the two host stretches, then the two calls. -/
abbrev segs : List (Pipeline.Seg (pcfgs (F := F)) adm (pdats m ρ) () defs₀ 𝒱₀ L lv) :=
  [ .host (hseg main_part0_ops0 main_part0_ops0_sub part0_fresh (W0 m ρ)),
    .host (hseg main_part1_ops0 main_part1_ops0_sub part1_fresh (Wa m ρ)),
    .region (reg0 m ρ),
    .region (reg1 m ρ) ]
/-- The program is the run of the segments. -/
theorem main_run (c : Dev nD) : main (F := F) c = Pipeline.Seg.run (segs m ρ) := (main_chain_windows c).trans (by chain_rfl)

set_option backward.isDefEq.respectTransparency.types false in
/-- THE RUN: from any memory with zero counters every weakly fair execution of the program on the cores terminates,
    nothing faulting, and every final state has the result array at what the second call leaves and the argument
    arrays as launched. -/
theorem run : θ_run defs (onTc (τ := τ) (main (F := F))) ⟨m, fun _ => 0, ρ⟩ (fun r => ∀ c : Dev nD,
      r.2.mem ((c.tc : Thread nD τ).loc main_v59) = (dat1 (V1 m ρ) qs c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v59 (by decide))).trans (W2_out m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

end Cert.ReferenceIdeal.Hand

end
-- ==== Proof.RefMlp.lean ====
/-
  The reference program's first call: what the array T holds when the call has run.

  Grid point t reads rows 512 t .. 512 t + 511 of the node features and the four packed weight arrays whole, and
  writes back the same rows of T: row p of what it writes is the row formula of the specification on row 512 t + p of
  the features with the packed weights as the call finds them. The sixteen write-backs tile T.
-/
import proofs.«150386_g2000204067356750_pallasbulk_973_23_alg».proof.Proof.RefBody
import proofs.«150386_g2000204067356750_pallasbulk_973_23_alg».proof.Proof.SpecLemmas
import Idealize.ShloMosaic.Lib.Pipeline.Value

set_option maxRecDepth 16384

noncomputable section

namespace Cert.ReferenceIdeal.Hand

open Idealize.ShloMosaic Idealize.ShloMosaic.TcCoe Idealize.SL.Sem Idealize.ShloMosaic.ValueIdx
open Idealize.ShloMosaic.Pipeline (Dat)
open Cert.ReferenceIdeal Cert.ReferenceIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- What the body stores is the perceptron on its block of 512 rows, with the packed weights it loaded. -/
theorem k0_pay1_eq (v0 : Vec Ideal S512x512 .f32) (v1 : Vec Ideal S512x128 .f32) (v4 : Vec Ideal S1x128 .f32)
    (v13 : Vec Ideal S128x128 .f32) (v16 : Vec Ideal S1x128 .f32) :
    k0_pay1 v0 v1 v4 v13 v16
      = Cert.Spec.mlpVec (A := 512) dot_S512x512_S512x128_S512x128_1_0_0_1_n_n dot_S512x128_S128x128_S512x128_1_0_0_1_n_n
          Facts₀.broadcasts_S1x128_S512x128 v0 v1 v4 v13 v16 := by
  show Cert.Spec.mlpVec (A := 512) dot_S512x512_S512x128_S512x128_1_0_0_1_n_n dot_S512x128_S128x128_S512x128_1_0_0_1_n_n
      Facts₀.broadcasts_S1x128_S512x128 v0 (shapeCast S512x128 v1 Facts₀.shapeCasts_S512x128_S512x128)
      (shapeCast S1x128 v4 Facts₀.shapeCasts_S1x128_S1x128) (shapeCast S128x128 v13 Facts₀.shapeCasts_S128x128_S128x128)
      (shapeCast S1x128 v16 Facts₀.shapeCasts_S1x128_S1x128) = _
  rw [shapeCast_self, shapeCast_self, shapeCast_self, shapeCast_self]

/-- Entry (p, q) of T: the row formula on row p of the features, with the packed weights the call finds. -/
def TrAt (c : Dev nD) (p : Fin 8192) (q : Fin 128) : EReal :=
  Cert.Spec.mlpAt (fun d => (V c main_arg0 : S8192x512.Idx → EReal) (ix2 p d)) (V c main_v43) (V c main_v47)
    (V c main_v53) (V c main_v57) q

def Tr (c : Dev nD) : S8192x128.Idx → EReal := fun j => TrAt V c (j 0) (j 1)

theorem idx_facts0 : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t = ![0, 0] ∧ win0_2.index t = ![0, 0] ∧ win0_3.index t = ![0, 0] ∧ win0_4.index t = ![0, 0] :=
  (by decide +kernel : ∀ t : Fin grid0.N, _)

theorem t_lt (t : Fin cfg0.N) : t.val < 16 := Nat.lt_of_lt_of_eq t.isLt (show cfg0.N = 16 from N_0)

theorem iblk_z (c : Dev nD) (t : Fin cfg0.N) (p : Fin 512) (d : Fin 512) :
    (iblk0 V c 0 t : S512x512.Idx → EReal) (ix2 p d)
      = (V c main_arg0 : S8192x512.Idx → EReal) (ix2 (⟨t.val * 512 + p.val, by have := t_lt t; omega⟩ : Fin 8192) d) := by
  obtain ⟨e0, e1, -⟩ := idx_facts0 t
  unfold iblk0
  rw [View.read_apply]
  show V c main_arg0 (((cfg0.win 0).blk t).view.emb (ix2 p d)) = V c main_arg0 _
  refine congrArg (V c main_arg0) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 512 + 1 * d.val = d.val; rw [e1]; omega

theorem iblk_w1 (c : Dev nD) (t : Fin cfg0.N) : (iblk0 V c 1 t : S512x128.Idx → EReal) = V c main_v43 := by
  obtain ⟨-, -, -, -, e, -⟩ := idx_facts0 t
  unfold iblk0
  funext x
  rw [View.read_apply]
  show V c main_v43 (((cfg0.win 1).blk t).view.emb x) = V c main_v43 x
  refine congrArg (V c main_v43) (funext fun a => Fin.ext ?_)
  match a with
  | ⟨0, _⟩ => show win0_1.index t (0 : Fin 2) * 512 + 1 * (x 0).val = (x 0).val; rw [e]; show 0 * 512 + 1 * (x 0).val = _; omega
  | ⟨1, _⟩ => show win0_1.index t (1 : Fin 2) * 128 + 1 * (x 1).val = (x 1).val; rw [e]; show 0 * 128 + 1 * (x 1).val = _; omega
theorem iblk_w2 (c : Dev nD) (t : Fin cfg0.N) : (iblk0 V c 2 t : S1x128.Idx → EReal) = V c main_v47 := by
  obtain ⟨-, -, -, -, -, e, -⟩ := idx_facts0 t
  unfold iblk0
  funext x
  rw [View.read_apply]
  show V c main_v47 (((cfg0.win 2).blk t).view.emb x) = V c main_v47 x
  refine congrArg (V c main_v47) (funext fun a => Fin.ext ?_)
  match a with
  | ⟨0, _⟩ => show win0_2.index t (0 : Fin 2) * 1 + 1 * (x 0).val = (x 0).val; rw [e]; show 0 * 1 + 1 * (x 0).val = _; omega
  | ⟨1, _⟩ => show win0_2.index t (1 : Fin 2) * 128 + 1 * (x 1).val = (x 1).val; rw [e]; show 0 * 128 + 1 * (x 1).val = _; omega
theorem iblk_w3 (c : Dev nD) (t : Fin cfg0.N) : (iblk0 V c 3 t : S128x128.Idx → EReal) = V c main_v53 := by
  obtain ⟨-, -, -, -, -, -, e, -⟩ := idx_facts0 t
  unfold iblk0
  funext x
  rw [View.read_apply]
  show V c main_v53 (((cfg0.win 3).blk t).view.emb x) = V c main_v53 x
  refine congrArg (V c main_v53) (funext fun a => Fin.ext ?_)
  match a with
  | ⟨0, _⟩ => show win0_3.index t (0 : Fin 2) * 128 + 1 * (x 0).val = (x 0).val; rw [e]; show 0 * 128 + 1 * (x 0).val = _; omega
  | ⟨1, _⟩ => show win0_3.index t (1 : Fin 2) * 128 + 1 * (x 1).val = (x 1).val; rw [e]; show 0 * 128 + 1 * (x 1).val = _; omega
theorem iblk_w4 (c : Dev nD) (t : Fin cfg0.N) : (iblk0 V c 4 t : S1x128.Idx → EReal) = V c main_v57 := by
  obtain ⟨-, -, -, -, -, -, -, e⟩ := idx_facts0 t
  unfold iblk0
  funext x
  rw [View.read_apply]
  show V c main_v57 (((cfg0.win 4).blk t).view.emb x) = V c main_v57 x
  refine congrArg (V c main_v57) (funext fun a => Fin.ext ?_)
  match a with
  | ⟨0, _⟩ => show win0_4.index t (0 : Fin 2) * 1 + 1 * (x 0).val = (x 0).val; rw [e]; show 0 * 1 + 1 * (x 0).val = _; omega
  | ⟨1, _⟩ => show win0_4.index t (1 : Fin 2) * 128 + 1 * (x 1).val = (x 1).val; rw [e]; show 0 * 128 + 1 * (x 1).val = _; omega

theorem emb_T (t : Fin cfg0.N) (p : Fin 512) (q : Fin 128) :
    (((cfg0.win 5).blk t).view.emb (ix2 p q) : S8192x128.Idx)
      = ix2 (⟨t.val * 512 + p.val, by have := t_lt t; omega⟩ : Fin 8192) q := by
  obtain ⟨-, -, e0, e1, -⟩ := idx_facts0 t
  refine funext fun a => Fin.ext ?_
  match a with
  | ⟨0, _⟩ => show win0_5.index t (0 : Fin 2) * 512 + 1 * p.val = t.val * 512 + p.val; rw [e0]; omega
  | ⟨1, _⟩ => show win0_5.index t (1 : Fin 2) * 128 + 1 * q.val = q.val; rw [e1]; omega

/-- What point t writes back is block t of Tr. -/
theorem flushed_T (c : Dev nD) (t : Fin cfg0.N) :
    (dat0 V c).flushed 5 t = ((cfg0.win 5).blk t).view.read (Elt Ideal) (Tr V c) := by
  show (cfg0.win 5).cut (grid0.coords t) ((dat0 V c).after 5 t) = _
  rw [after0_5]
  unfold out0_5
  rw [View.canon_unit_zero hz2]
  simp only [View.ld_unit_zero (S := S512x512) hz2, View.ld_unit_zero (S := S512x128) hz2, View.ld_unit_zero (S := S1x128) hz2, View.ld_unit_zero (S := S128x128) hz2]
  rw [k0_pay1_eq]
  funext y
  obtain ⟨p, q, rfl⟩ : ∃ (p : Fin 512) (q : Fin 128), y = ix2 p q := ⟨y 0, y 1, eq_ix2 y⟩
  rw [View.read_apply]
  refine (Cert.Spec.mlpVec_apply (A := 512) dot_S512x512_S512x128_S512x128_1_0_0_1_n_n ⟨rfl, rfl, rfl, rfl, rfl, rfl⟩
    dot_S512x128_S128x128_S512x128_1_0_0_1_n_n ⟨rfl, rfl, rfl, rfl, rfl, rfl⟩ _ _ _ _ _ _ p q).trans ?_
  rw [emb_T t p q]
  show _ = TrAt V c _ q
  unfold TrAt
  rw [show (fun d => (iblk0 V c 0 t : S512x512.Idx → EReal) (ix2 p d)) = fun d => (V c main_arg0 : S8192x512.Idx → EReal) (ix2 (⟨t.val * 512 + p.val, by have := t_lt t; omega⟩ : Fin 8192) d)
    from funext fun d => iblk_z V c t p d]
  rw [iblk_w1 V c t, iblk_w2 V c t, iblk_w3 V c t, iblk_w4 V c t]

theorem mem_blk_T (t : Fin cfg0.N) (i : S8192x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v58).slice (win0_5.rect t)).set ↔ _
  rw [View.set_slice_whole, Rect.mem_set_unit]
  exact Iff.rfl

theorem cover_T (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  let t : Fin cfg0.N := ⟨(i 0).val / 512, by rw [show cfg0.N = 16 from N_0]; omega⟩
  obtain ⟨-, -, e0, e1, -⟩ := idx_facts0 t
  refine ⟨t, flush0_5 t, ?_⟩
  rw [mem_blk_T]
  intro a
  match a with
  | ⟨0, _⟩ => show win0_5.index t (0 : Fin 2) * 512 ≤ (i 0).val ∧ (i 0).val < win0_5.index t (0 : Fin 2) * 512 + 512; rw [e0]; show (i 0).val / 512 * 512 ≤ _ ∧ _ < (i 0).val / 512 * 512 + 512; omega
  | ⟨1, _⟩ => show win0_5.index t (1 : Fin 2) * 128 ≤ (i 1).val ∧ (i 1).val < win0_5.index t (1 : Fin 2) * 128 + 128; rw [e1]; omega

/-- T when the first call has run. -/
theorem final_T (c : Dev nD) : (dat0 V c).arrAt 5 cfg0.N = Tr V c :=
  (dat0 V c).arrAt_eq_of_cover 5 (Tr V c) (fun t _ => flushed_T V c t) cover_T

end Cert.ReferenceIdeal.Hand

end
-- ==== Proof.RefGram.lean ====
/-
  The reference program's second call: what the result array holds when the call has run.

  The 256 grid points are the pairs (a, b) of row blocks, point t being (t / 16, t % 16). Point t reads rows
  512 a .. of T through one window and rows 512 b .. of the same T through another, and writes back tile (a, b) of the
  result: entry (p, q) of it is the sum over the 128 columns of T (512 a + p, k) T (512 b + q, k). The tiles cover the
  result.
-/
import proofs.«150386_g2000204067356750_pallasbulk_973_23_alg».proof.Proof.RefBody
import proofs.«150386_g2000204067356750_pallasbulk_973_23_alg».proof.Proof.SpecLemmas
import Idealize.ShloMosaic.Lib.Pipeline.Value

set_option maxRecDepth 16384

noncomputable section
open scoped BigOperators

namespace Cert.ReferenceIdeal.Hand

open Idealize.ShloMosaic Idealize.ShloMosaic.TcCoe Idealize.SL.Sem Idealize.ShloMosaic.ValueIdx
open Idealize.ShloMosaic.Pipeline (Dat)
open Idealize.SL Idealize.SL.RA
open Cert.ReferenceIdeal Cert.ReferenceIdeal.Gen

variable (V : (c : Dev nD) → (b : Ref sig .tc) → Buf (Elt Ideal) ((c : Thread nD τ).loc b))
variable (qs : Fin cfg1.W → PosShare TreeShare)

theorem hz2r : (![0, 0] : Fin 2 → Nat) = fun _ => 0 := funext fun a => by fin_cases a <;> rfl

/-- The Gram matrix of the array T the call finds. -/
def Gr (c : Dev nD) : S8192x8192.Idx → EReal := fun j => Cert.Spec.gramAt (V c main_v58) (j 0) (j 1)

theorem idx_facts1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = t.val % 16 :=
  (by decide +kernel : ∀ t : Fin grid1.N, _)

theorem t1_lt (t : Fin cfg1.N) : t.val < 256 := Nat.lt_of_lt_of_eq t.isLt (show cfg1.N = 256 from N_1)

/-- The row window's block at point t, at (p, k), is T at row 512 (t / 16) + p. -/
theorem iblk_row (c : Dev nD) (t : Fin cfg1.N) (p : Fin 512) (k : Fin 128) :
    (iblk1 V c 0 t : S512x128.Idx → EReal) (ix2 p k)
      = (V c main_v58 : S8192x128.Idx → EReal) (ix2 (⟨t.val / 16 * 512 + p.val, by have := t1_lt t; omega⟩ : Fin 8192) k) := by
  obtain ⟨e0, e1, -⟩ := idx_facts1 t
  unfold iblk1
  rw [View.read_apply]
  show V c main_v58 (((cfg1.win 0).blk t).view.emb (ix2 p k)) = V c main_v58 _
  refine congrArg (V c main_v58) (funext fun a => Fin.ext ?_)
  match a with
  | ⟨0, _⟩ => show win1_0.index t (0 : Fin 2) * 512 + 1 * p.val = t.val / 16 * 512 + p.val; rw [e0]; omega
  | ⟨1, _⟩ => show win1_0.index t (1 : Fin 2) * 128 + 1 * k.val = k.val; rw [e1]; omega

/-- The column window's block at point t, at (q, k), is T at row 512 (t % 16) + q. -/
theorem iblk_col (c : Dev nD) (t : Fin cfg1.N) (q : Fin 512) (k : Fin 128) :
    (iblk1 V c 1 t : S512x128.Idx → EReal) (ix2 q k)
      = (V c main_v58 : S8192x128.Idx → EReal) (ix2 (⟨t.val % 16 * 512 + q.val, by omega⟩ : Fin 8192) k) := by
  obtain ⟨-, -, e0, e1, -⟩ := idx_facts1 t
  unfold iblk1
  rw [View.read_apply]
  show V c main_v58 (((cfg1.win 1).blk t).view.emb (ix2 q k)) = V c main_v58 _
  refine congrArg (V c main_v58) (funext fun a => Fin.ext ?_)
  match a with
  | ⟨0, _⟩ => show win1_1.index t (0 : Fin 2) * 512 + 1 * q.val = t.val % 16 * 512 + q.val; rw [e0]; omega
  | ⟨1, _⟩ => show win1_1.index t (1 : Fin 2) * 128 + 1 * k.val = k.val; rw [e1]; omega

theorem emb_G (t : Fin cfg1.N) (p : Fin 512) (q : Fin 512) :
    (((cfg1.win 2).blk t).view.emb (ix2 p q) : S8192x8192.Idx)
      = ix2 (⟨t.val / 16 * 512 + p.val, by have := t1_lt t; omega⟩ : Fin 8192) (⟨t.val % 16 * 512 + q.val, by omega⟩ : Fin 8192) := by
  obtain ⟨-, -, -, -, e0, e1⟩ := idx_facts1 t
  refine funext fun a => Fin.ext ?_
  match a with
  | ⟨0, _⟩ => show win1_2.index t (0 : Fin 2) * 512 + 1 * p.val = t.val / 16 * 512 + p.val; rw [e0]; omega
  | ⟨1, _⟩ => show win1_2.index t (1 : Fin 2) * 512 + 1 * q.val = t.val % 16 * 512 + q.val; rw [e1]; omega

/-- What point t writes back is tile t of Gr. -/
theorem flushed_G (c : Dev nD) (t : Fin cfg1.N) :
    (dat1 V qs c).flushed 2 t = ((cfg1.win 2).blk t).view.read (Elt Ideal) (Gr V c) := by
  show (cfg1.win 2).cut (grid1.coords t) ((dat1 V qs c).after 2 t) = _
  rw [after1_2]
  unfold out1_2
  rw [View.canon_unit_zero hz2r]
  simp only [View.ld_unit_zero (S := S512x128) hz2r]
  funext y
  obtain ⟨p, q, rfl⟩ : ∃ (p : Fin 512) (q : Fin 512), y = ix2 p q := ⟨y 0, y 1, eq_ix2 y⟩
  rw [View.read_apply, emb_G t p q]
  unfold k1_pay1
  refine (Cert.Spec.gramVec_apply (A := 512) (B := 512) dot_S512x128_S512x128_S512x512_1_1_0_0_n_n ⟨rfl, rfl, rfl, rfl, rfl, rfl⟩ _ _ _ _ p q).trans ?_
  show _ = Cert.Spec.gramAt (V c main_v58) _ _
  unfold Cert.Spec.gramAt
  exact Finset.sum_congr rfl fun k _ => congrArg₂ (· * ·) (iblk_row V c t p k) (iblk_col V c t q k)

theorem mem_blk_G (t : Fin cfg1.N) (i : S8192x8192.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v59).slice (win1_2.rect t)).set ↔ _
  rw [View.set_slice_whole, Rect.mem_set_unit]
  exact Iff.rfl

/-- Entry (r, s) of the result is written back by the point (r / 512, s / 512). -/
theorem cover_G (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  let t : Fin cfg1.N := ⟨(i 0).val / 512 * 16 + (i 1).val / 512, by rw [show cfg1.N = 256 from N_1]; omega⟩
  obtain ⟨-, -, -, -, e0, e1⟩ := idx_facts1 t
  have ha : t.val / 16 = (i 0).val / 512 := by show ((i 0).val / 512 * 16 + (i 1).val / 512) / 16 = _; omega
  have hb : t.val % 16 = (i 1).val / 512 := by show ((i 0).val / 512 * 16 + (i 1).val / 512) % 16 = _; omega
  refine ⟨t, flush1_2 t, ?_⟩
  rw [mem_blk_G]
  intro a
  match a with
  | ⟨0, _⟩ => show win1_2.index t (0 : Fin 2) * 512 ≤ (i 0).val ∧ (i 0).val < win1_2.index t (0 : Fin 2) * 512 + 512; rw [e0, ha]; omega
  | ⟨1, _⟩ => show win1_2.index t (1 : Fin 2) * 512 ≤ (i 1).val ∧ (i 1).val < win1_2.index t (1 : Fin 2) * 512 + 512; rw [e1, hb]; omega

/-- The result when the second call has run. -/
theorem final_G (c : Dev nD) : (dat1 V qs c).arrAt 2 cfg1.N = Gr V c :=
  (dat1 V qs c).arrAt_eq_of_cover 2 (Gr V c) (fun t _ => flushed_G V qs c t) cover_G

end Cert.ReferenceIdeal.Hand

end
-- ==== Proof.LibScatterWindow.lean ====
/-
  A set-scatter of one whole two-axis window, read at an index.

  The scatter of the specification folds over the update's indices in row-major order, each in-bounds update element
  replacing the result's element at its landing index. When the scatter writes ONE window [r, c] of an [R, C] operand
  at a literal start (r0, c0) that keeps the window inside, update element (a, b) lands at (r0 + a, c0 + b): distinct
  update elements land at distinct indices, so the fold reads back, at (p, q), the update at (p - r0, q - c0) inside
  the window and the operand outside it.

  * `foldl_of_forall_ne`, `foldl_of_unique`: a left fold of point updates read at an index no step writes, and at an
    index exactly one step of a duplicate-free list writes.
  * `scatter_set_apply_of_start`: the scatter read at (p, q), from what the dimension numbers give as start and window
    coordinate on the two axes.
  * `scatter_cols_apply`: the start a one-entry index vector naming the column (the row start 0);
    `scatter_block_apply`: a two-entry index vector naming row and column; `cols_in` / `cols_out` / `block_in` /
    `block_out`: the two branches of each, from the side the index is on.
-/
import Idealize.ShloMosaic.Lib.StableHlo.Run
import Idealize.ShloMosaic.Lib.ValueIdx

noncomputable section

namespace Cert.ScatterWindow

open Idealize.ShloMosaic Idealize.ShloMosaic.ValueIdx

/-! ## A fold of point updates -/

section Fold
variable {I N α : Type}

/-- A fold of steps each of which changes at most the one index `g` names leaves alone an index no step names. -/
theorem foldl_of_forall_ne (step : (I → α) → N → (I → α)) (g : N → Option I)
    (hne : ∀ r n i, g n = some i → ∀ i', i' ≠ i → step r n i' = r i')
    (hnone : ∀ r n, g n = none → step r n = r) (i' : I) :
    ∀ (l : List N) (x : I → α), (∀ n ∈ l, g n ≠ some i') → l.foldl step x i' = x i'
  | [], _, _ => rfl
  | m :: l, x, h => by
    rw [List.foldl_cons, foldl_of_forall_ne step g hne hnone i' l _ (fun n hn => h n (List.mem_cons_of_mem _ hn))]
    cases hg : g m with
    | none => rw [hnone _ _ hg]
    | some i => exact hne x m i hg i' (fun e => h m List.mem_cons_self (by rw [hg, e]))

/-- At an index exactly one step of a duplicate-free list names, the fold reads what that step writes. -/
theorem foldl_of_unique (step : (I → α) → N → (I → α)) (g : N → Option I) (v : N → α)
    (heq : ∀ r n i, g n = some i → step r n i = v n)
    (hne : ∀ r n i, g n = some i → ∀ i', i' ≠ i → step r n i' = r i')
    (hnone : ∀ r n, g n = none → step r n = r) (i' : I) (n : N) (hn : g n = some i') :
    ∀ (l : List N) (x : I → α), l.Nodup → n ∈ l → (∀ m ∈ l, g m = some i' → m = n) → l.foldl step x i' = v n
  | [], _, _, hmem, _ => absurd hmem List.not_mem_nil
  | m :: l, x, hnd, hmem, hu => by
    rw [List.foldl_cons]
    by_cases hmn : m = n
    · subst hmn
      rw [foldl_of_forall_ne step g hne hnone i' l _ ?_]
      · exact heq x m i' hn
      · intro k hk hgk
        have e := hu k (List.mem_cons_of_mem _ hk) hgk
        subst e
        exact (List.nodup_cons.mp hnd).1 hk
    · have hmem' : n ∈ l := by
        rcases List.mem_cons.mp hmem with h | h
        · exact absurd h.symm hmn
        · exact h
      exact foldl_of_unique step g v heq hne hnone i' n hn l _ (List.nodup_cons.mp hnd).2 hmem'
        (fun k hk => hu k (List.mem_cons_of_mem _ hk))

end Fold

/-! ## One window -/

section Window
variable {α : Type} {R C r c : Nat} {si : Shape} {w : Nat}

/-- Where update element `j` of a one-window scatter lands, from the start and window coordinate on the two axes. -/
theorem resultIdx?_of_start (d : ScatterDims (⟨2, ![R, C]⟩ : Shape) si (⟨2, ![r, c]⟩ : Shape)) (idx : IVec si w) (r0 c0 : Nat)
    (hs0 : ∀ j, d.start j idx 0 = (r0 : Int)) (hs1 : ∀ j, d.start j idx 1 = (c0 : Int))
    (hw0 : ∀ j, d.window j 0 = (j 0).val) (hw1 : ∀ j, d.window j 1 = (j 1).val)
    (hr : r0 + r ≤ R) (hc : c0 + c ≤ C) (j : (⟨2, ![r, c]⟩ : Shape).Idx) :
    d.resultIdx? j idx
      = some (ix2 (⟨r0 + (j 0).val, by have := idx2_lt0 j; omega⟩ : Fin R) (⟨c0 + (j 1).val, by have := idx2_lt1 j; omega⟩ : Fin C)) := by
  have h0 := idx2_lt0 j
  have h1 := idx2_lt1 j
  unfold ScatterDims.resultIdx?
  rw [dif_pos]
  · congr 1
    funext a
    apply Fin.ext
    match a with
    | ⟨0, _⟩ => show (d.start j idx 0 + (d.window j 0 : Nat)).toNat = r0 + (j 0).val; rw [hs0, hw0]; omega
    | ⟨1, _⟩ => show (d.start j idx 1 + (d.window j 1 : Nat)).toNat = c0 + (j 1).val; rw [hs1, hw1]; omega
  · intro a
    match a with
    | ⟨0, _⟩ =>
      show 0 ≤ d.start j idx 0 + (d.window j 0 : Nat) ∧ d.start j idx 0 + (d.window j 0 : Nat) < (R : Int)
      rw [hs0, hw0]; omega
    | ⟨1, _⟩ =>
      show 0 ≤ d.start j idx 1 + (d.window j 1 : Nat) ∧ d.start j idx 1 + (d.window j 1 : Nat) < (C : Int)
      rw [hs1, hw1]; omega

/-- **The set-scatter of one window read at (p, q)**: inside the window the update at the coordinates less the start,
    outside it the operand. -/
theorem scatter_set_apply_of_start (d : ScatterDims (⟨2, ![R, C]⟩ : Shape) si (⟨2, ![r, c]⟩ : Shape)) (idx : IVec si w) (r0 c0 : Nat)
    (hs0 : ∀ j, d.start j idx 0 = (r0 : Int)) (hs1 : ∀ j, d.start j idx 1 = (c0 : Int))
    (hw0 : ∀ j, d.window j 0 = (j 0).val) (hw1 : ∀ j, d.window j 1 = (j 1).val)
    (hr : r0 + r ≤ R) (hc : c0 + c ≤ C)
    (x : (⟨2, ![R, C]⟩ : Shape).Idx → α) (upd : (⟨2, ![r, c]⟩ : Shape).Idx → α) (p : Fin R) (q : Fin C) :
    Host.scatter d (fun _ b => b) x idx upd (ix2 p q)
      = if h : (r0 ≤ p.val ∧ p.val < r0 + r) ∧ (c0 ≤ q.val ∧ q.val < c0 + c) then
          upd (ix2 (⟨p.val - r0, by omega⟩ : Fin r) (⟨q.val - c0, by omega⟩ : Fin c))
        else x (ix2 p q) := by
  have hres := resultIdx?_of_start d idx r0 c0 hs0 hs1 hw0 hw1 hr hc
  unfold Host.scatter
  by_cases h : (r0 ≤ p.val ∧ p.val < r0 + r) ∧ (c0 ≤ q.val ∧ q.val < c0 + c)
  · rw [dif_pos h]
    refine (foldl_of_unique _ (fun n => d.resultIdx? ((⟨2, ![r, c]⟩ : Shape).rowMajor.symm n) idx)
      (fun n => upd ((⟨2, ![r, c]⟩ : Shape).rowMajor.symm n)) ?_ ?_ ?_ (ix2 p q)
      ((⟨2, ![r, c]⟩ : Shape).rowMajor (ix2 (⟨p.val - r0, by omega⟩ : Fin r) (⟨q.val - c0, by omega⟩ : Fin c))) ?_ _ x
      (List.nodup_finRange _) (List.mem_finRange _) ?_).trans ?_
    · intro rr n i hg
      dsimp only at hg ⊢
      rw [hg]
      exact if_pos rfl
    · intro rr n i hg i' hne
      dsimp only at hg ⊢
      rw [hg]
      exact if_neg hne
    · intro rr n hg
      dsimp only at hg ⊢
      rw [hg]
    · rw [Equiv.symm_apply_apply, hres]
      congr 1
      funext a
      apply Fin.ext
      match a with
      | ⟨0, _⟩ => show r0 + (p.val - r0) = p.val; omega
      | ⟨1, _⟩ => show c0 + (q.val - c0) = q.val; omega
    · intro m _ hm
      rw [hres] at hm
      have e := Option.some.inj hm
      have e0 : r0 + (((⟨2, ![r, c]⟩ : Shape).rowMajor.symm m) 0).val = p.val := congrArg Fin.val (congrFun e 0)
      have e1 : c0 + (((⟨2, ![r, c]⟩ : Shape).rowMajor.symm m) 1).val = q.val := congrArg Fin.val (congrFun e 1)
      apply (⟨2, ![r, c]⟩ : Shape).rowMajor.symm.injective
      rw [Equiv.symm_apply_apply]
      funext a
      apply Fin.ext
      match a with
      | ⟨0, _⟩ => show (((⟨2, ![r, c]⟩ : Shape).rowMajor.symm m) 0).val = p.val - r0; omega
      | ⟨1, _⟩ => show (((⟨2, ![r, c]⟩ : Shape).rowMajor.symm m) 1).val = q.val - c0; omega
    · show upd _ = upd _
      rw [Equiv.symm_apply_apply]
  · rw [dif_neg h]
    refine foldl_of_forall_ne _ (fun n => d.resultIdx? ((⟨2, ![r, c]⟩ : Shape).rowMajor.symm n) idx) ?_ ?_ (ix2 p q) _ x ?_
    · intro rr n i hg i' hne
      dsimp only at hg ⊢
      rw [hg]
      exact if_neg hne
    · intro rr n hg
      dsimp only at hg ⊢
      rw [hg]
    · intro m _ hm
      rw [hres] at hm
      have e := Option.some.inj hm
      have e0 : r0 + (((⟨2, ![r, c]⟩ : Shape).rowMajor.symm m) 0).val = p.val := congrArg Fin.val (congrFun e 0)
      have e1 : c0 + (((⟨2, ![r, c]⟩ : Shape).rowMajor.symm m) 1).val = q.val := congrArg Fin.val (congrFun e 1)
      have b0 := idx2_lt0 ((⟨2, ![r, c]⟩ : Shape).rowMajor.symm m)
      have b1 := idx2_lt1 ((⟨2, ![r, c]⟩ : Shape).rowMajor.symm m)
      exact h ⟨⟨by omega, by omega⟩, ⟨by omega, by omega⟩⟩

end Window

/-! ## The start and the window coordinate the dimension numbers give -/

section Dims
variable {α : Type} {R C r c : Nat} {w : Nat}

/-- The one-element vector shape has one index. -/
theorem idx1_one_eq (i i' : (⟨1, ![1]⟩ : Shape).Idx) : i = i' :=
  (eq_ix1 i).trans ((congrArg ix1 (Subsingleton.elim (α := Fin 1) (i 0) (i' 0))).trans (eq_ix1 i').symm)

/-- Entry `k` of the list [0, 1] is `k`. -/
theorem getElem_pair (l : List (Fin 2)) (hl : l = [0, 1]) (k : Nat) (hk : k < l.length) (a : Fin 2) (hka : k = a.val) :
    l[k] = a := by
  subst hl; subst hka
  match a with
  | ⟨0, _⟩ => rfl
  | ⟨1, _⟩ => rfl

/-- Where an axis sits in the list [0, 1]. -/
theorem idxOf_pair : ∀ a : Fin 2, List.idxOf a ([0, 1] : List (Fin 2)) = a.val := by decide

/-- Both axes are in the list [0, 1]. -/
theorem mem_pair : ∀ a : Fin 2, a ∈ ([0, 1] : List (Fin 2)) := by decide

/-- With no axis removed both axes are kept, in order. -/
theorem kept_nil : (List.finRange 2).filter (fun x => decide (x ∉ ([] : List (Fin 2)))) = [0, 1] := by decide

theorem zero_not_mem_one : (0 : Fin 2) ∉ ([1] : List (Fin 2)) := by decide
theorem one_mem_one : (1 : Fin 2) ∈ ([1] : List (Fin 2)) := by decide

/-- With both update axes window axes and none inserted, the window coordinate on an operand axis is the update
    index's coordinate on that axis. -/
theorem window_eq {si : Shape} (d : ScatterDims (⟨2, ![R, C]⟩ : Shape) si (⟨2, ![r, c]⟩ : Shape))
    (hw : d.updateWindowDims = [0, 1]) (hi : d.insertedWindowDims = []) (j : (⟨2, ![r, c]⟩ : Shape).Idx) (a : Fin 2) :
    d.window j a = (j a).val := by
  have hk : d.sKept = [0, 1] := by
    show (List.finRange 2).filter (· ∉ d.insertedWindowDims) = [0, 1]
    rw [hi]; exact kept_nil
  have hmem : a ∈ d.sKept := by
    rw [hk]; exact mem_pair a
  unfold ScatterDims.window
  rw [dif_pos hmem]
  have e : d.updateWindowDims[d.sKept.idxOf a]'(by rw [d.window_length]; exact List.idxOf_lt_length_iff.2 hmem) = a :=
    getElem_pair _ hw _ _ a (by rw [hk]; exact idxOf_pair a)
  rw [e]

/-- An axis the index vector does not name starts at 0. -/
theorem start_of_not_mem {s si u : Shape} (d : ScatterDims s si u) (j : u.Idx) (idx : IVec si w) (a : Fin s.rank)
    (ha : a ∉ d.scatterDimsToOperandDims) : d.start j idx a = 0 := by
  unfold ScatterDims.start
  rw [dif_neg ha]

/-- With the index vector along axis 0 of a rank-1 array of scatter indices, component `k` of the start is read at
    entry `k`. -/
theorem siIdx_eq {s u : Shape} {n : Nat} (d : ScatterDims s (⟨1, ![n]⟩ : Shape) u) (hv : d.indexVectorDim = 0) (j : u.Idx)
    (k : Fin d.scatterDimsToOperandDims.length) (k' : Fin n) (hk : k.val = k'.val) : d.siIdx j k = ix1 k' := by
  funext b
  match b with
  | ⟨0, _⟩ =>
    unfold ScatterDims.siIdx
    dsimp only
    rw [dif_pos hv.symm]
    exact Fin.ext hk

/-- **One window at a column start** (the index vector's one entry names the column; the rows start at 0). -/
theorem scatter_cols_apply (d : ScatterDims (⟨2, ![R, C]⟩ : Shape) (⟨1, ![1]⟩ : Shape) (⟨2, ![r, c]⟩ : Shape))
    (hw : d.updateWindowDims = [0, 1]) (hi : d.insertedWindowDims = []) (hs : d.scatterDimsToOperandDims = [1])
    (idx : IVec (⟨1, ![1]⟩ : Shape) w) (c0 : Nat) (hc0 : (idx (ix1 0)).toInt = (c0 : Int)) (hr : 0 + r ≤ R) (hc : c0 + c ≤ C)
    (x : (⟨2, ![R, C]⟩ : Shape).Idx → α) (upd : (⟨2, ![r, c]⟩ : Shape).Idx → α) (p : Fin R) (q : Fin C) :
    Host.scatter d (fun _ b => b) x idx upd (ix2 p q)
      = if h : (0 ≤ p.val ∧ p.val < 0 + r) ∧ (c0 ≤ q.val ∧ q.val < c0 + c) then
          upd (ix2 (⟨p.val - 0, by omega⟩ : Fin r) (⟨q.val - c0, by omega⟩ : Fin c))
        else x (ix2 p q) := by
  refine scatter_set_apply_of_start d idx 0 c0 ?_ ?_ (fun j => window_eq d hw hi j 0) (fun j => window_eq d hw hi j 1) hr hc x upd p q
  · intro j
    exact start_of_not_mem d j idx 0 (by rw [hs]; exact zero_not_mem_one)
  · intro j
    unfold ScatterDims.start
    rw [dif_pos (by rw [hs]; exact one_mem_one)]
    rw [idx1_one_eq (d.siIdx j _) (ix1 0)]
    exact hc0

/-- **One window at a (row, column) start** (the index vector's two entries name row and column). -/
theorem scatter_block_apply (d : ScatterDims (⟨2, ![R, C]⟩ : Shape) (⟨1, ![2]⟩ : Shape) (⟨2, ![r, c]⟩ : Shape))
    (hw : d.updateWindowDims = [0, 1]) (hi : d.insertedWindowDims = []) (hs : d.scatterDimsToOperandDims = [0, 1])
    (hv : d.indexVectorDim = 0)
    (idx : IVec (⟨1, ![2]⟩ : Shape) w) (r0 c0 : Nat) (hr0 : (idx (ix1 0)).toInt = (r0 : Int)) (hc0 : (idx (ix1 1)).toInt = (c0 : Int))
    (hr : r0 + r ≤ R) (hc : c0 + c ≤ C)
    (x : (⟨2, ![R, C]⟩ : Shape).Idx → α) (upd : (⟨2, ![r, c]⟩ : Shape).Idx → α) (p : Fin R) (q : Fin C) :
    Host.scatter d (fun _ b => b) x idx upd (ix2 p q)
      = if h : (r0 ≤ p.val ∧ p.val < r0 + r) ∧ (c0 ≤ q.val ∧ q.val < c0 + c) then
          upd (ix2 (⟨p.val - r0, by omega⟩ : Fin r) (⟨q.val - c0, by omega⟩ : Fin c))
        else x (ix2 p q) := by
  refine scatter_set_apply_of_start d idx r0 c0 ?_ ?_ (fun j => window_eq d hw hi j 0) (fun j => window_eq d hw hi j 1) hr hc x upd p q
  · intro j
    unfold ScatterDims.start
    rw [dif_pos (by rw [hs]; exact mem_pair 0)]
    rw [siIdx_eq d hv j _ (0 : Fin 2) (by show List.idxOf (0 : Fin 2) d.scatterDimsToOperandDims = 0; rw [hs]; exact idxOf_pair 0)]
    exact hr0
  · intro j
    unfold ScatterDims.start
    rw [dif_pos (by rw [hs]; exact mem_pair 1)]
    rw [siIdx_eq d hv j _ (1 : Fin 2) (by show List.idxOf (1 : Fin 2) d.scatterDimsToOperandDims = 1; rw [hs]; exact idxOf_pair 1)]
    exact hc0

/-! ## The two readings, one at a time -/

/-- Inside the window of a column scatter: the update. -/
theorem cols_in (d : ScatterDims (⟨2, ![R, C]⟩ : Shape) (⟨1, ![1]⟩ : Shape) (⟨2, ![r, c]⟩ : Shape))
    (hw : d.updateWindowDims = [0, 1]) (hi : d.insertedWindowDims = []) (hs : d.scatterDimsToOperandDims = [1])
    (idx : IVec (⟨1, ![1]⟩ : Shape) w) (c0 : Nat) (hc0 : (idx (ix1 0)).toInt = (c0 : Int)) (hr : 0 + r ≤ R) (hc : c0 + c ≤ C)
    (x : (⟨2, ![R, C]⟩ : Shape).Idx → α) (upd : (⟨2, ![r, c]⟩ : Shape).Idx → α) (p : Fin R) (q : Fin C)
    (hin : (0 ≤ p.val ∧ p.val < 0 + r) ∧ (c0 ≤ q.val ∧ q.val < c0 + c)) :
    Host.scatter d (fun _ b => b) x idx upd (ix2 p q)
      = upd (ix2 (⟨p.val - 0, by omega⟩ : Fin r) (⟨q.val - c0, by omega⟩ : Fin c)) :=
  (scatter_cols_apply d hw hi hs idx c0 hc0 hr hc x upd p q).trans (dif_pos hin)

/-- Outside the window of a column scatter: the operand. -/
theorem cols_out (d : ScatterDims (⟨2, ![R, C]⟩ : Shape) (⟨1, ![1]⟩ : Shape) (⟨2, ![r, c]⟩ : Shape))
    (hw : d.updateWindowDims = [0, 1]) (hi : d.insertedWindowDims = []) (hs : d.scatterDimsToOperandDims = [1])
    (idx : IVec (⟨1, ![1]⟩ : Shape) w) (c0 : Nat) (hc0 : (idx (ix1 0)).toInt = (c0 : Int)) (hr : 0 + r ≤ R) (hc : c0 + c ≤ C)
    (x : (⟨2, ![R, C]⟩ : Shape).Idx → α) (upd : (⟨2, ![r, c]⟩ : Shape).Idx → α) (p : Fin R) (q : Fin C)
    (hout : ¬((0 ≤ p.val ∧ p.val < 0 + r) ∧ (c0 ≤ q.val ∧ q.val < c0 + c))) :
    Host.scatter d (fun _ b => b) x idx upd (ix2 p q) = x (ix2 p q) :=
  (scatter_cols_apply d hw hi hs idx c0 hc0 hr hc x upd p q).trans (dif_neg hout)

/-- Inside the window of a (row, column) scatter: the update. -/
theorem block_in (d : ScatterDims (⟨2, ![R, C]⟩ : Shape) (⟨1, ![2]⟩ : Shape) (⟨2, ![r, c]⟩ : Shape))
    (hw : d.updateWindowDims = [0, 1]) (hi : d.insertedWindowDims = []) (hs : d.scatterDimsToOperandDims = [0, 1])
    (hv : d.indexVectorDim = 0)
    (idx : IVec (⟨1, ![2]⟩ : Shape) w) (r0 c0 : Nat) (hr0 : (idx (ix1 0)).toInt = (r0 : Int)) (hc0 : (idx (ix1 1)).toInt = (c0 : Int))
    (hr : r0 + r ≤ R) (hc : c0 + c ≤ C)
    (x : (⟨2, ![R, C]⟩ : Shape).Idx → α) (upd : (⟨2, ![r, c]⟩ : Shape).Idx → α) (p : Fin R) (q : Fin C)
    (hin : (r0 ≤ p.val ∧ p.val < r0 + r) ∧ (c0 ≤ q.val ∧ q.val < c0 + c)) :
    Host.scatter d (fun _ b => b) x idx upd (ix2 p q)
      = upd (ix2 (⟨p.val - r0, by omega⟩ : Fin r) (⟨q.val - c0, by omega⟩ : Fin c)) :=
  (scatter_block_apply d hw hi hs hv idx r0 c0 hr0 hc0 hr hc x upd p q).trans (dif_pos hin)

/-- Outside the window of a (row, column) scatter: the operand. -/
theorem block_out (d : ScatterDims (⟨2, ![R, C]⟩ : Shape) (⟨1, ![2]⟩ : Shape) (⟨2, ![r, c]⟩ : Shape))
    (hw : d.updateWindowDims = [0, 1]) (hi : d.insertedWindowDims = []) (hs : d.scatterDimsToOperandDims = [0, 1])
    (hv : d.indexVectorDim = 0)
    (idx : IVec (⟨1, ![2]⟩ : Shape) w) (r0 c0 : Nat) (hr0 : (idx (ix1 0)).toInt = (r0 : Int)) (hc0 : (idx (ix1 1)).toInt = (c0 : Int))
    (hr : r0 + r ≤ R) (hc : c0 + c ≤ C)
    (x : (⟨2, ![R, C]⟩ : Shape).Idx → α) (upd : (⟨2, ![r, c]⟩ : Shape).Idx → α) (p : Fin R) (q : Fin C)
    (hout : ¬((r0 ≤ p.val ∧ p.val < r0 + r) ∧ (c0 ≤ q.val ∧ q.val < c0 + c))) :
    Host.scatter d (fun _ b => b) x idx upd (ix2 p q) = x (ix2 p q) :=
  (scatter_block_apply d hw hi hs hv idx r0 c0 hr0 hc0 hr hc x upd p q).trans (dif_neg hout)

end Dims

end Cert.ScatterWindow

end
-- ==== Proof.RefHost.lean ====
/-
  The reference's host operations before its first call build the four packed weight arrays of the specification:
  each array starts as zeros and receives the three relations' slices by set-scatters of one window each, at the
  column (row and column) starts the specification's packing names. Entry by entry, the last scatter whose window holds
  the entry gives the slice's element the specification reads; an entry in no window stays zero.
-/
import proofs.«150386_g2000204067356750_pallasbulk_973_23_alg».proof.Proof.Gen.ReferenceIdeal.Launch
import proofs.«150386_g2000204067356750_pallasbulk_973_23_alg».proof.Proof.Spec
import proofs.«150386_g2000204067356750_pallasbulk_973_23_alg».proof.Proof.LibScatterWindow
import proofs.«150386_g2000204067356750_pallasbulk_973_23_alg».proof.Proof.LibSlabLoad
import Idealize.ShloMosaic.Lib.StableHlo.Run
import Idealize.ShloMosaic.Lib.IdealHost

set_option maxRecDepth 4096

noncomputable section

namespace Cert.ReferenceIdeal.HostPack

open Idealize.ShloMosaic Idealize.ShloMosaic.ValueIdx Idealize.ShloMosaic.StableHlo
open Cert.ReferenceIdeal Cert.ReferenceIdeal.Gen Idealize.ShloMosaic.TcCoe
open Cert.ScatterWindow Cert.SlabLoad

/-- An array read at two rank-3 indices with the same coordinates reads the same entry. -/
theorem at_ix3_congr {α : Type} {n0 n1 n2 : Nat} (x : (⟨3, ![n0, n1, n2]⟩ : Shape).Idx → α) {a a' : Fin n0} {b b' : Fin n1}
    {c c' : Fin n2} (ha : a.val = a'.val) (hb : b.val = b'.val) (hc : c.val = c'.val) : x (ix3 a b c) = x (ix3 a' b' c') := by
  obtain rfl := Fin.ext ha
  obtain rfl := Fin.ext hb
  obtain rfl := Fin.ext hc
  rfl

/-- The zero scalar broadcast to an array reads the extended real zero everywhere. -/
theorem zeros_apply {T : Shape} (h : (⟨0, ![]⟩ : Shape).BroadcastsInDim T ![]) (j : T.Idx) :
    broadcastInDim T ![] h (constant (F := Ideal) S_ .f32 0x00000000#32) j = 0 :=
  (broadcastInDim_scalar_apply h _ j).trans Ideal.ofBits_zero_f32

/-- A one-entry index vector made of an integer constant reads the constant. -/
theorem start1 (c : BitVec 32) : broadcastInDim S1 ![] bcast_S_S1 (constantI S_ 32 c) (ix1 0) = c :=
  broadcastInDim_scalar_apply _ _ _

/-- A two-entry index vector made of two one-entry ones reads the first at entry 0 … -/
theorem start2_0 (a b : IVec S1 32) :
    concatenate S2 0 [⟨S1, a⟩, ⟨S1, b⟩] concatenates_S1_S1_S2_d0 (ix1 (0 : Fin 2)) = a (ix1 (0 : Fin 1)) :=
  concatenate_pair_apply_left (t := S2) (0 : Fin 1) a b concatenates_S1_S1_S2_d0 (ix1 (0 : Fin 2)) rfl (ix1 (0 : Fin 1))
    (fun b => by match b with | ⟨0, _⟩ => rfl)

/-- … and the second at entry 1. -/
theorem start2_1 (a b : IVec S1 32) :
    concatenate S2 0 [⟨S1, a⟩, ⟨S1, b⟩] concatenates_S1_S1_S2_d0 (ix1 (1 : Fin 2)) = b (ix1 (0 : Fin 1)) :=
  concatenate_pair_apply_right (t := S2) (0 : Fin 1) a b concatenates_S1_S1_S2_d0 (ix1 (1 : Fin 2)) rfl rfl (ix1 (0 : Fin 1))
    (fun b hb => absurd (Subsingleton.elim (α := Fin 1) _ _) hb) (by show 0 + 1 = 1; rfl)

/-! ## The specification's entries, by the side of its condition -/

theorem pW1_pos (w : Cert.Spec.ShW1.Idx → EReal) (d : Fin 512) (q : Fin 128) (h : q.val < 96) :
    Cert.Spec.packW1At w d q = w (ix3 (⟨q.val / 32, by omega⟩ : Fin 3) d (⟨q.val % 32, by omega⟩ : Fin 32)) := dif_pos h
theorem pW1_neg (w : Cert.Spec.ShW1.Idx → EReal) (d : Fin 512) (q : Fin 128) (h : ¬q.val < 96) :
    Cert.Spec.packW1At w d q = 0 := dif_neg h
theorem pB1_pos (b : Cert.Spec.ShB1.Idx → EReal) (q : Fin 128) (h : q.val < 96) :
    Cert.Spec.packB1At b q = b (ix3 (⟨q.val / 32, by omega⟩ : Fin 3) (0 : Fin 1) (⟨q.val % 32, by omega⟩ : Fin 32)) := dif_pos h
theorem pB1_neg (b : Cert.Spec.ShB1.Idx → EReal) (q : Fin 128) (h : ¬q.val < 96) : Cert.Spec.packB1At b q = 0 := dif_neg h
theorem pW2_pos (w : Cert.Spec.ShW2.Idx → EReal) (k q : Fin 128) (h : k.val < 96 ∧ q.val < 48 ∧ k.val / 32 = q.val / 16) :
    Cert.Spec.packW2At w k q
      = w (ix3 (⟨k.val / 32, by omega⟩ : Fin 3) (⟨k.val % 32, by omega⟩ : Fin 32) (⟨q.val % 16, by omega⟩ : Fin 16)) := dif_pos h
theorem pW2_neg (w : Cert.Spec.ShW2.Idx → EReal) (k q : Fin 128) (h : ¬(k.val < 96 ∧ q.val < 48 ∧ k.val / 32 = q.val / 16)) :
    Cert.Spec.packW2At w k q = 0 := dif_neg h
theorem pB2_pos (b : Cert.Spec.ShB2.Idx → EReal) (q : Fin 128) (h : q.val < 48) :
    Cert.Spec.packB2At b q = b (ix3 (⟨q.val / 16, by omega⟩ : Fin 3) (0 : Fin 1) (⟨q.val % 16, by omega⟩ : Fin 16)) := dif_pos h
theorem pB2_neg (b : Cert.Spec.ShB2.Idx → EReal) (q : Fin 128) (h : ¬q.val < 48) : Cert.Spec.packB2At b q = 0 := dif_neg h

/-! ## The four arrays, and the features -/

set_option maxHeartbeats 1000000 in
/-- The first layer's packed weights. -/
theorem host_W1 (W : Valuation τ sig (Elt Ideal)) :
    (StableHlo.after main_part1_ops0 (StableHlo.after main_part0_ops0 W) (Proc.devRef .tc main_v43) : S512x128.Idx → EReal)
      = Cert.Spec.packW1 (W (Proc.devRef .tc main_arg1)) := by
  funext j
  obtain ⟨p, q, rfl⟩ : ∃ (p : Fin 512) (q : Fin 128), j = ix2 p q := ⟨j 0, j 1, eq_ix2 j⟩
  show _ = Cert.Spec.packW1At _ p q
  after_results_simp
  have hq := q.isLt
  have hp := p.isLt
  by_cases h0 : q.val < 32
  · -- relation 0
    refine (cols_out _ (by rfl) (by rfl) (by rfl) _ 64 (by rw [start1]; decide) (by decide) (by decide) _ _ p q (by omega)).trans ?_
    refine (cols_out _ (by rfl) (by rfl) (by rfl) _ 32 (by rw [start1]; decide) (by decide) (by decide) _ _ p q (by omega)).trans ?_
    refine (cols_in _ (by rfl) (by rfl) (by rfl) _ 0 (by rw [start1]; decide) (by decide) (by decide) _ _ p q (by omega)).trans ?_
    refine (slice_slab_apply _ 0 (by decide) _ _ _ _).trans ?_
    rw [pW1_pos _ _ _ (by omega)]
    exact at_ix3_congr _ (by show 0 = q.val / 32; omega) (by show p.val - 0 = p.val; omega) (by show q.val - 0 = q.val % 32; omega)
  by_cases h1 : q.val < 64
  · -- relation 1
    refine (cols_out _ (by rfl) (by rfl) (by rfl) _ 64 (by rw [start1]; decide) (by decide) (by decide) _ _ p q (by omega)).trans ?_
    refine (cols_in _ (by rfl) (by rfl) (by rfl) _ 32 (by rw [start1]; decide) (by decide) (by decide) _ _ p q (by omega)).trans ?_
    refine (slice_slab_apply _ 1 (by decide) _ _ _ _).trans ?_
    rw [pW1_pos _ _ _ (by omega)]
    exact at_ix3_congr _ (by show 1 = q.val / 32; omega) (by show p.val - 0 = p.val; omega) (by show q.val - 32 = q.val % 32; omega)
  by_cases h2 : q.val < 96
  · -- relation 2
    refine (cols_in _ (by rfl) (by rfl) (by rfl) _ 64 (by rw [start1]; decide) (by decide) (by decide) _ _ p q (by omega)).trans ?_
    refine (slice_slab_apply _ 2 (by decide) _ _ _ _).trans ?_
    rw [pW1_pos _ _ _ (by omega)]
    exact at_ix3_congr _ (by show 2 = q.val / 32; omega) (by show p.val - 0 = p.val; omega) (by show q.val - 64 = q.val % 32; omega)
  · -- beyond the three relations: zeros
    refine (cols_out _ (by rfl) (by rfl) (by rfl) _ 64 (by rw [start1]; decide) (by decide) (by decide) _ _ p q (by omega)).trans ?_
    refine (cols_out _ (by rfl) (by rfl) (by rfl) _ 32 (by rw [start1]; decide) (by decide) (by decide) _ _ p q (by omega)).trans ?_
    refine (cols_out _ (by rfl) (by rfl) (by rfl) _ 0 (by rw [start1]; decide) (by decide) (by decide) _ _ p q (by omega)).trans ?_
    rw [pW1_neg _ _ _ h2]
    exact zeros_apply _ _

set_option maxHeartbeats 1000000 in
/-- The first layer's packed bias. -/
theorem host_B1 (W : Valuation τ sig (Elt Ideal)) :
    (StableHlo.after main_part1_ops0 (StableHlo.after main_part0_ops0 W) (Proc.devRef .tc main_v47) : S1x128.Idx → EReal)
      = Cert.Spec.packB1 (W (Proc.devRef .tc main_arg2)) := by
  funext j
  obtain ⟨p, q, rfl⟩ : ∃ (p : Fin 1) (q : Fin 128), j = ix2 p q := ⟨j 0, j 1, eq_ix2 j⟩
  show _ = Cert.Spec.packB1At _ q
  after_results_simp
  have hq := q.isLt
  have hp := p.isLt
  by_cases h0 : q.val < 32
  · -- relation 0
    refine (cols_out _ (by rfl) (by rfl) (by rfl) _ 64 (by rw [start1]; decide) (by decide) (by decide) _ _ p q (by omega)).trans ?_
    refine (cols_out _ (by rfl) (by rfl) (by rfl) _ 32 (by rw [start1]; decide) (by decide) (by decide) _ _ p q (by omega)).trans ?_
    refine (cols_in _ (by rfl) (by rfl) (by rfl) _ 0 (by rw [start1]; decide) (by decide) (by decide) _ _ p q (by omega)).trans ?_
    refine (slice_slab_apply _ 0 (by decide) _ _ _ _).trans ?_
    rw [pB1_pos _ _ (by omega)]
    exact at_ix3_congr _ (by show 0 = q.val / 32; omega) (by show p.val - 0 = 0; omega) (by show q.val - 0 = q.val % 32; omega)
  by_cases h1 : q.val < 64
  · -- relation 1
    refine (cols_out _ (by rfl) (by rfl) (by rfl) _ 64 (by rw [start1]; decide) (by decide) (by decide) _ _ p q (by omega)).trans ?_
    refine (cols_in _ (by rfl) (by rfl) (by rfl) _ 32 (by rw [start1]; decide) (by decide) (by decide) _ _ p q (by omega)).trans ?_
    refine (slice_slab_apply _ 1 (by decide) _ _ _ _).trans ?_
    rw [pB1_pos _ _ (by omega)]
    exact at_ix3_congr _ (by show 1 = q.val / 32; omega) (by show p.val - 0 = 0; omega) (by show q.val - 32 = q.val % 32; omega)
  by_cases h2 : q.val < 96
  · -- relation 2
    refine (cols_in _ (by rfl) (by rfl) (by rfl) _ 64 (by rw [start1]; decide) (by decide) (by decide) _ _ p q (by omega)).trans ?_
    refine (slice_slab_apply _ 2 (by decide) _ _ _ _).trans ?_
    rw [pB1_pos _ _ (by omega)]
    exact at_ix3_congr _ (by show 2 = q.val / 32; omega) (by show p.val - 0 = 0; omega) (by show q.val - 64 = q.val % 32; omega)
  · -- beyond the three relations: zeros
    refine (cols_out _ (by rfl) (by rfl) (by rfl) _ 64 (by rw [start1]; decide) (by decide) (by decide) _ _ p q (by omega)).trans ?_
    refine (cols_out _ (by rfl) (by rfl) (by rfl) _ 32 (by rw [start1]; decide) (by decide) (by decide) _ _ p q (by omega)).trans ?_
    refine (cols_out _ (by rfl) (by rfl) (by rfl) _ 0 (by rw [start1]; decide) (by decide) (by decide) _ _ p q (by omega)).trans ?_
    rw [pB1_neg _ _ h2]
    exact zeros_apply _ _

set_option maxHeartbeats 1000000 in
/-- The second layer's block-diagonal packed weights. -/
theorem host_W2 (W : Valuation τ sig (Elt Ideal)) :
    (StableHlo.after main_part1_ops0 (StableHlo.after main_part0_ops0 W) (Proc.devRef .tc main_v53) : S128x128.Idx → EReal)
      = Cert.Spec.packW2 (W (Proc.devRef .tc main_arg3)) := by
  funext j
  obtain ⟨p, q, rfl⟩ : ∃ (p : Fin 128) (q : Fin 128), j = ix2 p q := ⟨j 0, j 1, eq_ix2 j⟩
  show _ = Cert.Spec.packW2At _ p q
  after_results_simp
  have hq := q.isLt
  have hp := p.isLt
  by_cases hc : p.val < 96 ∧ q.val < 48 ∧ p.val / 32 = q.val / 16
  · rw [pW2_pos _ _ _ hc]
    by_cases hp0 : p.val < 32
    · -- block 0
      refine (block_out _ (by rfl) (by rfl) (by rfl) (by rfl) _ 64 32 (by rw [start2_0]; after_results_simp; rw [start1]; decide) (by rw [start2_1]; after_results_simp; rw [start1]; decide) (by decide) (by decide) _ _ p q (by omega)).trans ?_
      refine (block_out _ (by rfl) (by rfl) (by rfl) (by rfl) _ 32 16 (by rw [start2_0]; after_results_simp; rw [start1]; decide) (by rw [start2_1]; after_results_simp; rw [start1]; decide) (by decide) (by decide) _ _ p q (by omega)).trans ?_
      refine (block_in _ (by rfl) (by rfl) (by rfl) (by rfl) _ 0 0 (by rw [start2_0]; after_results_simp; rw [start1]; decide) (by rw [start2_1]; after_results_simp; rw [start1]; decide) (by decide) (by decide) _ _ p q (by omega)).trans ?_
      refine (slice_slab_apply _ 0 (by decide) _ _ _ _).trans ?_
      exact at_ix3_congr _ (by show 0 = p.val / 32; omega) (by show p.val - 0 = p.val % 32; omega) (by show q.val - 0 = q.val % 16; omega)
    by_cases hp1 : p.val < 64
    · -- block 1
      refine (block_out _ (by rfl) (by rfl) (by rfl) (by rfl) _ 64 32 (by rw [start2_0]; after_results_simp; rw [start1]; decide) (by rw [start2_1]; after_results_simp; rw [start1]; decide) (by decide) (by decide) _ _ p q (by omega)).trans ?_
      refine (block_in _ (by rfl) (by rfl) (by rfl) (by rfl) _ 32 16 (by rw [start2_0]; after_results_simp; rw [start1]; decide) (by rw [start2_1]; after_results_simp; rw [start1]; decide) (by decide) (by decide) _ _ p q (by omega)).trans ?_
      refine (slice_slab_apply _ 1 (by decide) _ _ _ _).trans ?_
      exact at_ix3_congr _ (by show 1 = p.val / 32; omega) (by show p.val - 32 = p.val % 32; omega) (by show q.val - 16 = q.val % 16; omega)
    · -- block 2
      refine (block_in _ (by rfl) (by rfl) (by rfl) (by rfl) _ 64 32 (by rw [start2_0]; after_results_simp; rw [start1]; decide) (by rw [start2_1]; after_results_simp; rw [start1]; decide) (by decide) (by decide) _ _ p q (by omega)).trans ?_
      refine (slice_slab_apply _ 2 (by decide) _ _ _ _).trans ?_
      exact at_ix3_congr _ (by show 2 = p.val / 32; omega) (by show p.val - 64 = p.val % 32; omega) (by show q.val - 32 = q.val % 16; omega)
  · -- off the three blocks: zeros
    rw [pW2_neg _ _ _ hc]
    refine (block_out _ (by rfl) (by rfl) (by rfl) (by rfl) _ 64 32 (by rw [start2_0]; after_results_simp; rw [start1]; decide) (by rw [start2_1]; after_results_simp; rw [start1]; decide) (by decide) (by decide) _ _ p q (by omega)).trans ?_
    refine (block_out _ (by rfl) (by rfl) (by rfl) (by rfl) _ 32 16 (by rw [start2_0]; after_results_simp; rw [start1]; decide) (by rw [start2_1]; after_results_simp; rw [start1]; decide) (by decide) (by decide) _ _ p q (by omega)).trans ?_
    refine (block_out _ (by rfl) (by rfl) (by rfl) (by rfl) _ 0 0 (by rw [start2_0]; after_results_simp; rw [start1]; decide) (by rw [start2_1]; after_results_simp; rw [start1]; decide) (by decide) (by decide) _ _ p q (by omega)).trans ?_
    exact zeros_apply _ _

set_option maxHeartbeats 1000000 in
/-- The second layer's packed bias. -/
theorem host_B2 (W : Valuation τ sig (Elt Ideal)) :
    (StableHlo.after main_part1_ops0 (StableHlo.after main_part0_ops0 W) (Proc.devRef .tc main_v57) : S1x128.Idx → EReal)
      = Cert.Spec.packB2 (W (Proc.devRef .tc main_arg4)) := by
  funext j
  obtain ⟨p, q, rfl⟩ : ∃ (p : Fin 1) (q : Fin 128), j = ix2 p q := ⟨j 0, j 1, eq_ix2 j⟩
  show _ = Cert.Spec.packB2At _ q
  after_results_simp
  have hq := q.isLt
  have hp := p.isLt
  by_cases h0 : q.val < 16
  · -- relation 0
    refine (cols_out _ (by rfl) (by rfl) (by rfl) _ 32 (by rw [start1]; decide) (by decide) (by decide) _ _ p q (by omega)).trans ?_
    refine (cols_out _ (by rfl) (by rfl) (by rfl) _ 16 (by rw [start1]; decide) (by decide) (by decide) _ _ p q (by omega)).trans ?_
    refine (cols_in _ (by rfl) (by rfl) (by rfl) _ 0 (by rw [start1]; decide) (by decide) (by decide) _ _ p q (by omega)).trans ?_
    refine (slice_slab_apply _ 0 (by decide) _ _ _ _).trans ?_
    rw [pB2_pos _ _ (by omega)]
    exact at_ix3_congr _ (by show 0 = q.val / 16; omega) (by show p.val - 0 = 0; omega) (by show q.val - 0 = q.val % 16; omega)
  by_cases h1 : q.val < 32
  · -- relation 1
    refine (cols_out _ (by rfl) (by rfl) (by rfl) _ 32 (by rw [start1]; decide) (by decide) (by decide) _ _ p q (by omega)).trans ?_
    refine (cols_in _ (by rfl) (by rfl) (by rfl) _ 16 (by rw [start1]; decide) (by decide) (by decide) _ _ p q (by omega)).trans ?_
    refine (slice_slab_apply _ 1 (by decide) _ _ _ _).trans ?_
    rw [pB2_pos _ _ (by omega)]
    exact at_ix3_congr _ (by show 1 = q.val / 16; omega) (by show p.val - 0 = 0; omega) (by show q.val - 16 = q.val % 16; omega)
  by_cases h2 : q.val < 48
  · -- relation 2
    refine (cols_in _ (by rfl) (by rfl) (by rfl) _ 32 (by rw [start1]; decide) (by decide) (by decide) _ _ p q (by omega)).trans ?_
    refine (slice_slab_apply _ 2 (by decide) _ _ _ _).trans ?_
    rw [pB2_pos _ _ (by omega)]
    exact at_ix3_congr _ (by show 2 = q.val / 16; omega) (by show p.val - 0 = 0; omega) (by show q.val - 32 = q.val % 16; omega)
  · -- beyond the three relations: zeros
    refine (cols_out _ (by rfl) (by rfl) (by rfl) _ 32 (by rw [start1]; decide) (by decide) (by decide) _ _ p q (by omega)).trans ?_
    refine (cols_out _ (by rfl) (by rfl) (by rfl) _ 16 (by rw [start1]; decide) (by decide) (by decide) _ _ p q (by omega)).trans ?_
    refine (cols_out _ (by rfl) (by rfl) (by rfl) _ 0 (by rw [start1]; decide) (by decide) (by decide) _ _ p q (by omega)).trans ?_
    rw [pB2_neg _ _ h2]
    exact zeros_apply _ _

/-- The host operations leave the features alone. -/
theorem host_z (W : Valuation τ sig (Elt Ideal)) :
    StableHlo.after main_part1_ops0 (StableHlo.after main_part0_ops0 W) (Proc.devRef .tc main_arg0) = W (Proc.devRef .tc main_arg0) := by
  after_results_simp

end Cert.ReferenceIdeal.HostPack

end
-- ==== Proof.RefValue.lean ====
/-
  The reference program's result as the specification's function of the argument arrays.

  The host operations leave the node features as launched and build the four packed weight arrays of the
  specification; the first call then leaves the specification's T, and the second call its Gram matrix.
-/
import proofs.«150386_g2000204067356750_pallasbulk_973_23_alg».proof.Proof.RefMlp
import proofs.«150386_g2000204067356750_pallasbulk_973_23_alg».proof.Proof.RefGram
import proofs.«150386_g2000204067356750_pallasbulk_973_23_alg».proof.Proof.RefRunA
import proofs.«150386_g2000204067356750_pallasbulk_973_23_alg».proof.Proof.RefHost

set_option maxRecDepth 16384

noncomputable section

namespace Cert.ReferenceIdeal.Hand

open Idealize.ShloMosaic Idealize.ShloMosaic.TcCoe Idealize.SL.Sem Idealize.ShloMosaic.ValueIdx
open Idealize.ShloMosaic.Pipeline (Dat)
open Idealize.SL Idealize.SL.RA
open Cert.ReferenceIdeal Cert.ReferenceIdeal.Gen

variable (m : (ℓ : Loc nD τ sig) → Buf (Elt Ideal) ℓ) (ρ : Dev nD → PrngReg)

/-- No host operation writes the node features. -/
theorem Vb_z (c : Dev nD) : Vb m ρ c main_arg0 = m ((c : Thread nD τ).loc main_arg0) :=
  (part1_keeps (Wa m ρ c) main_arg0 (by decide)).trans (part0_keeps (W0 m ρ c) main_arg0 (by decide))

/-- The packed weight arrays the first call finds are the specification's. -/
theorem Vb_W1 (c : Dev nD) : (Vb m ρ c main_v43 : S512x128.Idx → EReal) = Cert.Spec.packW1 (m ((c : Thread nD τ).loc main_arg1)) :=
  Cert.ReferenceIdeal.HostPack.host_W1 (W0 m ρ c)
theorem Vb_B1 (c : Dev nD) : (Vb m ρ c main_v47 : S1x128.Idx → EReal) = Cert.Spec.packB1 (m ((c : Thread nD τ).loc main_arg2)) :=
  Cert.ReferenceIdeal.HostPack.host_B1 (W0 m ρ c)
theorem Vb_W2 (c : Dev nD) : (Vb m ρ c main_v53 : S128x128.Idx → EReal) = Cert.Spec.packW2 (m ((c : Thread nD τ).loc main_arg3)) :=
  Cert.ReferenceIdeal.HostPack.host_W2 (W0 m ρ c)
theorem Vb_B2 (c : Dev nD) : (Vb m ρ c main_v57 : S1x128.Idx → EReal) = Cert.Spec.packB2 (m ((c : Thread nD τ).loc main_arg4)) :=
  Cert.ReferenceIdeal.HostPack.host_B2 (W0 m ρ c)

/-- T after the first call is the specification's T. -/
theorem Tr_eq (c : Dev nD) :
    Tr (Vb m ρ) c = Cert.Spec.T (m ((c : Thread nD τ).loc main_arg0)) (m ((c : Thread nD τ).loc main_arg1)) (m ((c : Thread nD τ).loc main_arg2))
      (m ((c : Thread nD τ).loc main_arg3)) (m ((c : Thread nD τ).loc main_arg4)) := by
  funext j
  show TrAt (Vb m ρ) c (j 0) (j 1) = _
  unfold TrAt
  rw [Vb_z m ρ c, Vb_W1 m ρ c, Vb_B1 m ρ c, Vb_W2 m ρ c, Vb_B2 m ρ c]
  rfl

/-- The result array after the run. -/
theorem value (c : Dev nD) :
    (dat1 (V1 m ρ) qs c).arrAt 2 cfg1.N
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  rw [final_G, Cert.Spec.G_eq]
  unfold Gr
  rw [V1_T, final_T, Tr_eq]

end Cert.ReferenceIdeal.Hand

end
-- ==== Proof.lean ====
/-
  The certificate: the kernel program and the reference program compute the same function of their arguments at the
  ideal instance.

  Both programs compute, from the node features z and the three relations' perceptron weights, the packed perceptron
  T = leaky (leaky (z W1 + B1) W2 + B2) and then the Gram matrix T Tᵀ (Proof/Spec.lean). The kernel program packs the
  weights inside its first call by concatenations and keeps T in a narrower storage format between its two calls, which
  changes nothing at the ideal instance; its second call reads T whole and writes row stripes of the result. The
  reference packs the weights on the host by writing the slices into arrays of zeros, runs the perceptron on blocks of
  512 rows and writes the result in 512 x 512 tiles. Each side's result array is read off its run as the
  specification's G of the argument arrays (Proof/KernelValue.lean, Proof/RefValue.lean); the two runs start from
  memories that agree on the arguments, so the results agree entry by entry. No law of arithmetic is needed beyond
  reading the matrix products as sums: the two sides evaluate the same expression, so the claim holds for every
  input, finite or not. The ideal pass rewrote nothing, so there is nothing to preserve.
-/
import proofs.«150386_g2000204067356750_pallasbulk_973_23_alg».proof.Defs
import proofs.«150386_g2000204067356750_pallasbulk_973_23_alg».proof.Proof.Gen.Kernel
import proofs.«150386_g2000204067356750_pallasbulk_973_23_alg».proof.Proof.Gen.Kernel.Frame
import proofs.«150386_g2000204067356750_pallasbulk_973_23_alg».proof.Proof.Gen.KernelIdeal
import proofs.«150386_g2000204067356750_pallasbulk_973_23_alg».proof.Proof.Gen.KernelIdeal.Frame
import proofs.«150386_g2000204067356750_pallasbulk_973_23_alg».proof.Proof.Gen.ReferenceIdeal
import proofs.«150386_g2000204067356750_pallasbulk_973_23_alg».proof.Proof.Gen.Pre_finite_inputs
import proofs.«150386_g2000204067356750_pallasbulk_973_23_alg».proof.Proof.KernelRun
import proofs.«150386_g2000204067356750_pallasbulk_973_23_alg».proof.Proof.KernelValue
import proofs.«150386_g2000204067356750_pallasbulk_973_23_alg».proof.Proof.RefRun
import proofs.«150386_g2000204067356750_pallasbulk_973_23_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both runs end with the result array at the specification's G of the argument arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.value m ρ c), (h c).2⟩)
      (Cert.KernelIdeal.GenP.run (F := Ideal) m ρ)
  · refine (θ_run Cert.ReferenceIdeal.defs _ _).mono (fun _ h c => ⟨(h c).1.trans ?_, (h c).2⟩)
      (Cert.ReferenceIdeal.Hand.run (F := Ideal) m' ρ')
    rw [Cert.ReferenceIdeal.Hand.value m' ρ' c, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
